-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x31 : Shape := ⟨4, ![8, 512, 512, 31]⟩
abbrev S1x512x512x31 : Shape := ⟨4, ![1, 512, 512, 31]⟩
abbrev S_ : Shape := ⟨0, ![]⟩

class Facts : Prop where
  bcast_S_S8x512x512x31 : S_.BroadcastsInDim S8x512x512x31 (![] : Fin 0 → Fin S8x512x512x31.rank)
  reducesTo_S8x512x512x31_S_d0_1_2_3 : S8x512x512x31.ReducesTo [0, 1, 2, 3] S_
  h_S_ : 0 < S_.numel
  bcast_S_S1x512x512x31 : S_.BroadcastsInDim S1x512x512x31 (![] : Fin 0 → Fin S1x512x512x31.rank)
  reducesTo_S1x512x512x31_S_d0_1_2_3 : S1x512x512x31.ReducesTo [0, 1, 2, 3] S_

variable [Facts]

def fn {F : FTy → Type} [FloatOps F] (main_arg0 : FVec F S8x512x512x31 .f32) (main_arg1 : FVec F S1x512x512x31 .f32) : IVec S_ 1 :=
  let main_v0 : FVec F S8x512x512x31 .f32 := Host.absf main_arg0
  let main_cst : FVec F S_ .f32 := constant S_ .f32 0x7F800000#32
  let main_v1 : FVec F S8x512x512x31 .f32 := broadcastInDim S8x512x512x31 ![] bcast_S_S8x512x512x31 main_cst
  let main_v2 : IVec S8x512x512x31 1 := cmpf .olt main_v0 main_v1
  let main_c : IVec S_ 1 := constantI S_ 1 1#1
  let main_v3 : IVec S_ 1 := (fun x v => Host.reduce IntOp.andi x v reducesTo_S8x512x512x31_S_d0_1_2_3 h_S_) main_v2 main_c
  let main_v4 : FVec F S1x512x512x31 .f32 := Host.absf main_arg1
  let main_cst_0 : FVec F S_ .f32 := constant S_ .f32 0x7F800000#32
  let main_v5 : FVec F S1x512x512x31 .f32 := broadcastInDim S1x512x512x31 ![] bcast_S_S1x512x512x31 main_cst_0
  let main_v6 : IVec S1x512x512x31 1 := cmpf .olt main_v4 main_v5
  let main_c_1 : IVec S_ 1 := constantI S_ 1 1#1
  let main_v7 : IVec S_ 1 := (fun x v => Host.reduce IntOp.andi x v reducesTo_S1x512x512x31_S_d0_1_2_3 h_S_) main_v6 main_c_1
  let main_v8 : IVec S_ 1 := andi main_v3 main_v7
  main_v8
-- ==== Kernel.lean ====
abbrev S8x512x512x31 : Shape := ⟨4, ![8, 512, 512, 31]⟩
abbrev S1x512x512x31 : Shape := ⟨4, ![1, 512, 512, 31]⟩
abbrev S8x512x31x512 : Shape := ⟨4, ![8, 512, 31, 512]⟩
abbrev S1x512x31x512 : Shape := ⟨4, ![1, 512, 31, 512]⟩
abbrev S8x512x640 : Shape := ⟨3, ![8, 512, 640]⟩
abbrev S1x128x31x512 : Shape := ⟨4, ![1, 128, 31, 512]⟩
abbrev S1x128x640 : Shape := ⟨3, ![1, 128, 640]⟩
abbrev S128x31x512 : Shape := ⟨3, ![128, 31, 512]⟩
abbrev S128x640 : Shape := ⟨2, ![128, 640]⟩
abbrev S128x1x512 : Shape := ⟨3, ![128, 1, 512]⟩
abbrev S128x512 : Shape := ⟨2, ![128, 512]⟩
abbrev S128x128 : Shape := ⟨2, ![128, 128]⟩
abbrev S128x1 : Shape := ⟨2, ![128, 1]⟩
abbrev S128x513 : Shape := ⟨2, ![128, 513]⟩
abbrev S128x127 : Shape := ⟨2, ![128, 127]⟩
abbrev S128x2 : Shape := ⟨2, ![128, 2]⟩
abbrev S128x514 : Shape := ⟨2, ![128, 514]⟩
abbrev S128x126 : Shape := ⟨2, ![128, 126]⟩
abbrev S128x3 : Shape := ⟨2, ![128, 3]⟩
abbrev S128x515 : Shape := ⟨2, ![128, 515]⟩
abbrev S128x125 : Shape := ⟨2, ![128, 125]⟩
abbrev S128x4 : Shape := ⟨2, ![128, 4]⟩
abbrev S128x516 : Shape := ⟨2, ![128, 516]⟩
abbrev S128x124 : Shape := ⟨2, ![128, 124]⟩
abbrev S128x5 : Shape := ⟨2, ![128, 5]⟩
abbrev S128x517 : Shape := ⟨2, ![128, 517]⟩
abbrev S128x123 : Shape := ⟨2, ![128, 123]⟩
abbrev S128x6 : Shape := ⟨2, ![128, 6]⟩
abbrev S128x518 : Shape := ⟨2, ![128, 518]⟩
abbrev S128x122 : Shape := ⟨2, ![128, 122]⟩
abbrev S128x7 : Shape := ⟨2, ![128, 7]⟩
abbrev S128x519 : Shape := ⟨2, ![128, 519]⟩
abbrev S128x121 : Shape := ⟨2, ![128, 121]⟩
abbrev S128x8 : Shape := ⟨2, ![128, 8]⟩
abbrev S128x520 : Shape := ⟨2, ![128, 520]⟩
abbrev S128x120 : Shape := ⟨2, ![128, 120]⟩
abbrev S128x9 : Shape := ⟨2, ![128, 9]⟩
abbrev S128x521 : Shape := ⟨2, ![128, 521]⟩
abbrev S128x119 : Shape := ⟨2, ![128, 119]⟩
abbrev S128x10 : Shape := ⟨2, ![128, 10]⟩
abbrev S128x522 : Shape := ⟨2, ![128, 522]⟩
abbrev S128x118 : Shape := ⟨2, ![128, 118]⟩
abbrev S128x11 : Shape := ⟨2, ![128, 11]⟩
abbrev S128x523 : Shape := ⟨2, ![128, 523]⟩
abbrev S128x117 : Shape := ⟨2, ![128, 117]⟩
abbrev S128x12 : Shape := ⟨2, ![128, 12]⟩
abbrev S128x524 : Shape := ⟨2, ![128, 524]⟩
abbrev S128x116 : Shape := ⟨2, ![128, 116]⟩
abbrev S128x13 : Shape := ⟨2, ![128, 13]⟩
abbrev S128x525 : Shape := ⟨2, ![128, 525]⟩
abbrev S128x115 : Shape := ⟨2, ![128, 115]⟩
abbrev S128x14 : Shape := ⟨2, ![128, 14]⟩
abbrev S128x526 : Shape := ⟨2, ![128, 526]⟩
abbrev S128x114 : Shape := ⟨2, ![128, 114]⟩
abbrev S128x15 : Shape := ⟨2, ![128, 15]⟩
abbrev S128x527 : Shape := ⟨2, ![128, 527]⟩
abbrev S128x113 : Shape := ⟨2, ![128, 113]⟩
abbrev S128x16 : Shape := ⟨2, ![128, 16]⟩
abbrev S128x528 : Shape := ⟨2, ![128, 528]⟩
abbrev S128x112 : Shape := ⟨2, ![128, 112]⟩
abbrev S128x17 : Shape := ⟨2, ![128, 17]⟩
abbrev S128x529 : Shape := ⟨2, ![128, 529]⟩
abbrev S128x111 : Shape := ⟨2, ![128, 111]⟩
abbrev S128x18 : Shape := ⟨2, ![128, 18]⟩
abbrev S128x530 : Shape := ⟨2, ![128, 530]⟩
abbrev S128x110 : Shape := ⟨2, ![128, 110]⟩
abbrev S128x19 : Shape := ⟨2, ![128, 19]⟩
abbrev S128x531 : Shape := ⟨2, ![128, 531]⟩
abbrev S128x109 : Shape := ⟨2, ![128, 109]⟩
abbrev S128x20 : Shape := ⟨2, ![128, 20]⟩
abbrev S128x532 : Shape := ⟨2, ![128, 532]⟩
abbrev S128x108 : Shape := ⟨2, ![128, 108]⟩
abbrev S128x21 : Shape := ⟨2, ![128, 21]⟩
abbrev S128x533 : Shape := ⟨2, ![128, 533]⟩
abbrev S128x107 : Shape := ⟨2, ![128, 107]⟩
abbrev S128x22 : Shape := ⟨2, ![128, 22]⟩
abbrev S128x534 : Shape := ⟨2, ![128, 534]⟩
abbrev S128x106 : Shape := ⟨2, ![128, 106]⟩
abbrev S128x23 : Shape := ⟨2, ![128, 23]⟩
abbrev S128x535 : Shape := ⟨2, ![128, 535]⟩
abbrev S128x105 : Shape := ⟨2, ![128, 105]⟩
abbrev S128x24 : Shape := ⟨2, ![128, 24]⟩
abbrev S128x536 : Shape := ⟨2, ![128, 536]⟩
abbrev S128x104 : Shape := ⟨2, ![128, 104]⟩
abbrev S128x25 : Shape := ⟨2, ![128, 25]⟩
abbrev S128x537 : Shape := ⟨2, ![128, 537]⟩
abbrev S128x103 : Shape := ⟨2, ![128, 103]⟩
abbrev S128x26 : Shape := ⟨2, ![128, 26]⟩
abbrev S128x538 : Shape := ⟨2, ![128, 538]⟩
abbrev S128x102 : Shape := ⟨2, ![128, 102]⟩
abbrev S128x27 : Shape := ⟨2, ![128, 27]⟩
abbrev S128x539 : Shape := ⟨2, ![128, 539]⟩
abbrev S128x101 : Shape := ⟨2, ![128, 101]⟩
abbrev S128x28 : Shape := ⟨2, ![128, 28]⟩
abbrev S128x540 : Shape := ⟨2, ![128, 540]⟩
abbrev S128x100 : Shape := ⟨2, ![128, 100]⟩
abbrev S128x29 : Shape := ⟨2, ![128, 29]⟩
abbrev S128x541 : Shape := ⟨2, ![128, 541]⟩
abbrev S128x99 : Shape := ⟨2, ![128, 99]⟩
abbrev S128x30 : Shape := ⟨2, ![128, 30]⟩
abbrev S128x542 : Shape := ⟨2, ![128, 542]⟩
abbrev S128x98 : Shape := ⟨2, ![128, 98]⟩
abbrev S8x512x542 : Shape := ⟨3, ![8, 512, 542]⟩
abbrev S_ : Shape := ⟨0, ![]⟩
abbrev S8x512x542x1 : Shape := ⟨4, ![8, 512, 542, 1]⟩
abbrev S1x512x512x31x1 : Shape := ⟨5, ![1, 512, 512, 31, 1]⟩

abbrev nBuf : Space → Nat
  | .hbm => 12
  | .vmem => 5
  | .smem => 0
  | _ => 0

abbrev bufTy : (tb : Table) → Fin (tcTables nBuf tb) → BufTy
  | .hbm, ⟨0, _⟩ => ⟨S8x512x512x31, .f32⟩
  | .hbm, ⟨1, _⟩ => ⟨S1x512x512x31, .f32⟩
  | .hbm, ⟨2, _⟩ => ⟨S8x512x31x512, .f32⟩
  | .hbm, ⟨3, _⟩ => ⟨S1x512x31x512, .f32⟩
  | .hbm, ⟨4, _⟩ => ⟨S8x512x640, .f32⟩
  | .hbm, ⟨5, _⟩ => ⟨S8x512x542, .f32⟩
  | .hbm, ⟨6, _⟩ => ⟨S_, .f32⟩
  | .hbm, ⟨7, _⟩ => ⟨S_, .f32⟩
  | .hbm, ⟨8, _⟩ => ⟨S8x512x542, .f32⟩
  | .hbm, ⟨9, _⟩ => ⟨S8x512x542, .f32⟩
  | .hbm, ⟨10, _⟩ => ⟨S8x512x542x1, .f32⟩
  | .hbm, ⟨11, _⟩ => ⟨S1x512x512x31x1, .f32⟩
  | .local _ .vmem, ⟨0, _⟩ => ⟨S1x128x31x512, .f32⟩
  | .local _ .vmem, ⟨1, _⟩ => ⟨S1x128x31x512, .f32⟩
  | .local _ .vmem, ⟨2, _⟩ => ⟨S1x128x31x512, .f32⟩
  | .local _ .vmem, ⟨3, _⟩ => ⟨S1x128x640, .f32⟩
  | .local _ .vmem, ⟨4, _⟩ => ⟨S1x128x640, .f32⟩
  | _, _ => ⟨S8x512x512x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x128x31x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128x31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8x512x512x31_S8x512x31x512_0_1_3_2 : S8x512x512x31.Transposes [0, 1, 3, 2] S8x512x31x512
  transposes_S1x512x512x31_S1x512x31x512_0_1_3_2 : S1x512x512x31.Transposes [0, 1, 3, 2] S1x512x31x512
  inb_S1x128x31x512_S1x128x31x512_0_0_0_0 : ∀ a, (![0, 0, 0, 0] : Fin 4 → Nat) a + S1x128x31x512.size a ≤ S1x128x31x512.size a
  h_S1x128x31x512 : 0 < S1x128x31x512.numel
  shapeCasts_S1x128x31x512_S128x31x512 : S1x128x31x512.ShapeCasts S128x31x512
  slices_S128x31x512_o0_0_0_S128x1x512 : S128x31x512.Slices ![0, 0, 0] S128x1x512
  shapeCasts_S128x1x512_S128x512 : S128x1x512.ShapeCasts S128x512
  concatenates_S128x512_S128x128_S128x640_d1 : Shape.Concatenates [S128x512, S128x128] S128x640 1
  slices_S128x31x512_o0_1_0_S128x1x512 : S128x31x512.Slices ![0, 1, 0] S128x1x512
  concatenates_S128x1_S128x512_S128x513_d1 : Shape.Concatenates [S128x1, S128x512] S128x513 1
  concatenates_S128x513_S128x127_S128x640_d1 : Shape.Concatenates [S128x513, S128x127] S128x640 1
  slices_S128x31x512_o0_2_0_S128x1x512 : S128x31x512.Slices ![0, 2, 0] S128x1x512
  concatenates_S128x2_S128x512_S128x514_d1 : Shape.Concatenates [S128x2, S128x512] S128x514 1
  concatenates_S128x514_S128x126_S128x640_d1 : Shape.Concatenates [S128x514, S128x126] S128x640 1
  slices_S128x31x512_o0_3_0_S128x1x512 : S128x31x512.Slices ![0, 3, 0] S128x1x512
  concatenates_S128x3_S128x512_S128x515_d1 : Shape.Concatenates [S128x3, S128x512] S128x515 1
  concatenates_S128x515_S128x125_S128x640_d1 : Shape.Concatenates [S128x515, S128x125] S128x640 1
  slices_S128x31x512_o0_4_0_S128x1x512 : S128x31x512.Slices ![0, 4, 0] S128x1x512
  concatenates_S128x4_S128x512_S128x516_d1 : Shape.Concatenates [S128x4, S128x512] S128x516 1
  concatenates_S128x516_S128x124_S128x640_d1 : Shape.Concatenates [S128x516, S128x124] S128x640 1
  slices_S128x31x512_o0_5_0_S128x1x512 : S128x31x512.Slices ![0, 5, 0] S128x1x512
  concatenates_S128x5_S128x512_S128x517_d1 : Shape.Concatenates [S128x5, S128x512] S128x517 1
  concatenates_S128x517_S128x123_S128x640_d1 : Shape.Concatenates [S128x517, S128x123] S128x640 1
  slices_S128x31x512_o0_6_0_S128x1x512 : S128x31x512.Slices ![0, 6, 0] S128x1x512
  concatenates_S128x6_S128x512_S128x518_d1 : Shape.Concatenates [S128x6, S128x512] S128x518 1
  concatenates_S128x518_S128x122_S128x640_d1 : Shape.Concatenates [S128x518, S128x122] S128x640 1
  slices_S128x31x512_o0_7_0_S128x1x512 : S128x31x512.Slices ![0, 7, 0] S128x1x512
  concatenates_S128x7_S128x512_S128x519_d1 : Shape.Concatenates [S128x7, S128x512] S128x519 1
  concatenates_S128x519_S128x121_S128x640_d1 : Shape.Concatenates [S128x519, S128x121] S128x640 1
  slices_S128x31x512_o0_8_0_S128x1x512 : S128x31x512.Slices ![0, 8, 0] S128x1x512
  concatenates_S128x8_S128x512_S128x520_d1 : Shape.Concatenates [S128x8, S128x512] S128x520 1
  concatenates_S128x520_S128x120_S128x640_d1 : Shape.Concatenates [S128x520, S128x120] S128x640 1
  slices_S128x31x512_o0_9_0_S128x1x512 : S128x31x512.Slices ![0, 9, 0] S128x1x512
  concatenates_S128x9_S128x512_S128x521_d1 : Shape.Concatenates [S128x9, S128x512] S128x521 1
  concatenates_S128x521_S128x119_S128x640_d1 : Shape.Concatenates [S128x521, S128x119] S128x640 1
  slices_S128x31x512_o0_10_0_S128x1x512 : S128x31x512.Slices ![0, 10, 0] S128x1x512
  concatenates_S128x10_S128x512_S128x522_d1 : Shape.Concatenates [S128x10, S128x512] S128x522 1
  concatenates_S128x522_S128x118_S128x640_d1 : Shape.Concatenates [S128x522, S128x118] S128x640 1
  slices_S128x31x512_o0_11_0_S128x1x512 : S128x31x512.Slices ![0, 11, 0] S128x1x512
  concatenates_S128x11_S128x512_S128x523_d1 : Shape.Concatenates [S128x11, S128x512] S128x523 1
  concatenates_S128x523_S128x117_S128x640_d1 : Shape.Concatenates [S128x523, S128x117] S128x640 1
  slices_S128x31x512_o0_12_0_S128x1x512 : S128x31x512.Slices ![0, 12, 0] S128x1x512
  concatenates_S128x12_S128x512_S128x524_d1 : Shape.Concatenates [S128x12, S128x512] S128x524 1
  concatenates_S128x524_S128x116_S128x640_d1 : Shape.Concatenates [S128x524, S128x116] S128x640 1
  slices_S128x31x512_o0_13_0_S128x1x512 : S128x31x512.Slices ![0, 13, 0] S128x1x512
  concatenates_S128x13_S128x512_S128x525_d1 : Shape.Concatenates [S128x13, S128x512] S128x525 1
  concatenates_S128x525_S128x115_S128x640_d1 : Shape.Concatenates [S128x525, S128x115] S128x640 1
  slices_S128x31x512_o0_14_0_S128x1x512 : S128x31x512.Slices ![0, 14, 0] S128x1x512
  concatenates_S128x14_S128x512_S128x526_d1 : Shape.Concatenates [S128x14, S128x512] S128x526 1
  concatenates_S128x526_S128x114_S128x640_d1 : Shape.Concatenates [S128x526, S128x114] S128x640 1
  slices_S128x31x512_o0_15_0_S128x1x512 : S128x31x512.Slices ![0, 15, 0] S128x1x512
  concatenates_S128x15_S128x512_S128x527_d1 : Shape.Concatenates [S128x15, S128x512] S128x527 1
  concatenates_S128x527_S128x113_S128x640_d1 : Shape.Concatenates [S128x527, S128x113] S128x640 1
  slices_S128x31x512_o0_16_0_S128x1x512 : S128x31x512.Slices ![0, 16, 0] S128x1x512
  concatenates_S128x16_S128x512_S128x528_d1 : Shape.Concatenates [S128x16, S128x512] S128x528 1
  concatenates_S128x528_S128x112_S128x640_d1 : Shape.Concatenates [S128x528, S128x112] S128x640 1
  slices_S128x31x512_o0_17_0_S128x1x512 : S128x31x512.Slices ![0, 17, 0] S128x1x512
  concatenates_S128x17_S128x512_S128x529_d1 : Shape.Concatenates [S128x17, S128x512] S128x529 1
  concatenates_S128x529_S128x111_S128x640_d1 : Shape.Concatenates [S128x529, S128x111] S128x640 1
  slices_S128x31x512_o0_18_0_S128x1x512 : S128x31x512.Slices ![0, 18, 0] S128x1x512
  concatenates_S128x18_S128x512_S128x530_d1 : Shape.Concatenates [S128x18, S128x512] S128x530 1
  concatenates_S128x530_S128x110_S128x640_d1 : Shape.Concatenates [S128x530, S128x110] S128x640 1
  slices_S128x31x512_o0_19_0_S128x1x512 : S128x31x512.Slices ![0, 19, 0] S128x1x512
  concatenates_S128x19_S128x512_S128x531_d1 : Shape.Concatenates [S128x19, S128x512] S128x531 1
  concatenates_S128x531_S128x109_S128x640_d1 : Shape.Concatenates [S128x531, S128x109] S128x640 1
  slices_S128x31x512_o0_20_0_S128x1x512 : S128x31x512.Slices ![0, 20, 0] S128x1x512
  concatenates_S128x20_S128x512_S128x532_d1 : Shape.Concatenates [S128x20, S128x512] S128x532 1
  concatenates_S128x532_S128x108_S128x640_d1 : Shape.Concatenates [S128x532, S128x108] S128x640 1
  slices_S128x31x512_o0_21_0_S128x1x512 : S128x31x512.Slices ![0, 21, 0] S128x1x512
  concatenates_S128x21_S128x512_S128x533_d1 : Shape.Concatenates [S128x21, S128x512] S128x533 1
  concatenates_S128x533_S128x107_S128x640_d1 : Shape.Concatenates [S128x533, S128x107] S128x640 1
  slices_S128x31x512_o0_22_0_S128x1x512 : S128x31x512.Slices ![0, 22, 0] S128x1x512
  concatenates_S128x22_S128x512_S128x534_d1 : Shape.Concatenates [S128x22, S128x512] S128x534 1
  concatenates_S128x534_S128x106_S128x640_d1 : Shape.Concatenates [S128x534, S128x106] S128x640 1
  slices_S128x31x512_o0_23_0_S128x1x512 : S128x31x512.Slices ![0, 23, 0] S128x1x512
  concatenates_S128x23_S128x512_S128x535_d1 : Shape.Concatenates [S128x23, S128x512] S128x535 1
  concatenates_S128x535_S128x105_S128x640_d1 : Shape.Concatenates [S128x535, S128x105] S128x640 1
  slices_S128x31x512_o0_24_0_S128x1x512 : S128x31x512.Slices ![0, 24, 0] S128x1x512
  concatenates_S128x24_S128x512_S128x536_d1 : Shape.Concatenates [S128x24, S128x512] S128x536 1
  concatenates_S128x536_S128x104_S128x640_d1 : Shape.Concatenates [S128x536, S128x104] S128x640 1
  slices_S128x31x512_o0_25_0_S128x1x512 : S128x31x512.Slices ![0, 25, 0] S128x1x512
  concatenates_S128x25_S128x512_S128x537_d1 : Shape.Concatenates [S128x25, S128x512] S128x537 1
  concatenates_S128x537_S128x103_S128x640_d1 : Shape.Concatenates [S128x537, S128x103] S128x640 1
  slices_S128x31x512_o0_26_0_S128x1x512 : S128x31x512.Slices ![0, 26, 0] S128x1x512
  concatenates_S128x26_S128x512_S128x538_d1 : Shape.Concatenates [S128x26, S128x512] S128x538 1
  concatenates_S128x538_S128x102_S128x640_d1 : Shape.Concatenates [S128x538, S128x102] S128x640 1
  slices_S128x31x512_o0_27_0_S128x1x512 : S128x31x512.Slices ![0, 27, 0] S128x1x512
  concatenates_S128x27_S128x512_S128x539_d1 : Shape.Concatenates [S128x27, S128x512] S128x539 1
  concatenates_S128x539_S128x101_S128x640_d1 : Shape.Concatenates [S128x539, S128x101] S128x640 1
  slices_S128x31x512_o0_28_0_S128x1x512 : S128x31x512.Slices ![0, 28, 0] S128x1x512
  concatenates_S128x28_S128x512_S128x540_d1 : Shape.Concatenates [S128x28, S128x512] S128x540 1
  concatenates_S128x540_S128x100_S128x640_d1 : Shape.Concatenates [S128x540, S128x100] S128x640 1
  slices_S128x31x512_o0_29_0_S128x1x512 : S128x31x512.Slices ![0, 29, 0] S128x1x512
  concatenates_S128x29_S128x512_S128x541_d1 : Shape.Concatenates [S128x29, S128x512] S128x541 1
  concatenates_S128x541_S128x99_S128x640_d1 : Shape.Concatenates [S128x541, S128x99] S128x640 1
  slices_S128x31x512_o0_30_0_S128x1x512 : S128x31x512.Slices ![0, 30, 0] S128x1x512
  concatenates_S128x30_S128x512_S128x542_d1 : Shape.Concatenates [S128x30, S128x512] S128x542 1
  concatenates_S128x542_S128x98_S128x640_d1 : Shape.Concatenates [S128x542, S128x98] S128x640 1
  inb_S1x128x640_S1x128x640_0_0_0 : ∀ a, (![0, 0, 0] : Fin 3 → Nat) a + S1x128x640.size a ≤ S1x128x640.size a
  h_S1x128x640 : 0 < S1x128x640.numel
  shapeCasts_S1x128x640_S128x640 : S1x128x640.ShapeCasts S128x640
  shapeCasts_S128x640_S1x128x640 : S128x640.ShapeCasts S1x128x640
  slices_S8x512x640_S8x512x542_0_0_0 : S8x512x640.Slices ![0, 0, 0] S8x512x542
  reducesTo_S8x512x542_S_d0_1_2 : S8x512x542.ReducesTo [0, 1, 2] S_
  h_S_ : 0 < S_.numel
  bcast_S_S8x512x542 : S_.BroadcastsInDim S8x512x542 (![] : Fin 0 → Fin S8x512x542.rank)
  bcast_S8x512x542_S8x512x542x1_0_1_2 : S8x512x542.BroadcastsInDim S8x512x542x1 (![0, 1, 2] : Fin 3 → Fin S8x512x542x1.rank)
  bcast_S1x512x512x31_S1x512x512x31x1_0_1_2_3 : S1x512x512x31.BroadcastsInDim S1x512x512x31x1 (![0, 1, 2, 3] : Fin 4 → Fin S1x512x512x31x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x31x512.size a ≤ S8x512x31x512.size a
  hwx0_0 : ∀ i : grid0.Coords, EltTy.bits .f32 = 32 ∨ (Rect.block (s := S8x512x31x512) S1x128x31x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128x31x512.size a ≤ S1x512x31x512.size a
  hwx0_1 : ∀ i : grid0.Coords, EltTy.bits .f32 = 32 ∨ (Rect.block (s := S1x512x31x512) S1x128x31x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x640.size a ≤ S8x512x640.size a
  hwx0_2 : ∀ i : grid0.Coords, EltTy.bits .f32 = 32 ∨ (Rect.block (s := S8x512x640) S1x128x640.size (cc0_transform_2 i) (hinb0_2 i)).WholeWords (EltTy.packing .f32)

variable [Facts₀]

abbrev win0_0 : Pipeline.Window sig grid0 :=
  Pipeline.Window.ofSpec (Memref.whole main_v0) S1x128x31x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x31x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x512x31 : Shape := ⟨4, ![8, 512, 512, 31]⟩
abbrev S1x512x512x31 : Shape := ⟨4, ![1, 512, 512, 31]⟩
abbrev S1x512x512x31x1 : Shape := ⟨5, ![1, 512, 512, 31, 1]⟩
abbrev S8x512x512x31x1 : Shape := ⟨5, ![8, 512, 512, 31, 1]⟩
abbrev S_ : Shape := ⟨0, ![]⟩
abbrev S8x512x542x1 : Shape := ⟨4, ![8, 512, 542, 1]⟩
abbrev S8x512x512x1x1 : Shape := ⟨5, ![8, 512, 512, 1, 1]⟩
abbrev S8x512x512x1 : Shape := ⟨4, ![8, 512, 512, 1]⟩
abbrev S1 : Shape := ⟨1, ![1]⟩

abbrev nBuf : Space → Nat
  | .hbm => 167
  | .vmem => 0
  | .smem => 0
  | _ => 0

abbrev hbmTy0_0 (i : Nat) : BufTy := match i % 128 with
  | 0 => ⟨S8x512x512x31, .f32⟩
  | 1 => ⟨S1x512x512x31, .f32⟩
  | 2 => ⟨S1x512x512x31x1, .f32⟩
  | 3 => ⟨S8x512x512x31x1, .f32⟩
  | 4 => ⟨S8x512x512x31x1, .f32⟩
  | 5 => ⟨S8x512x512x31x1, .f32⟩
  | 6 => ⟨S_, .f32⟩
  | 7 => ⟨S8x512x542x1, .f32⟩
  | 8 => ⟨S8x512x512x1x1, .f32⟩
  | 9 => ⟨S8x512x512x1, .f32⟩
  | 10 => ⟨S_, .i32⟩
  | 11 => ⟨S1, .i32⟩
  | 12 => ⟨S8x512x542x1, .f32⟩
  | 13 => ⟨S8x512x512x1x1, .f32⟩
  | 14 => ⟨S8x512x512x1, .f32⟩
  | 15 => ⟨S_, .i32⟩
  | 16 => ⟨S1, .i32⟩
  | 17 => ⟨S8x512x542x1, .f32⟩
  | 18 => ⟨S8x512x512x1x1, .f32⟩
  | 19 => ⟨S8x512x512x1, .f32⟩
  | 20 => ⟨S_, .i32⟩
  | 21 => ⟨S1, .i32⟩
  | 22 => ⟨S8x512x542x1, .f32⟩
  | 23 => ⟨S8x512x512x1x1, .f32⟩
  | 24 => ⟨S8x512x512x1, .f32⟩
  | 25 => ⟨S_, .i32⟩
  | 26 => ⟨S1, .i32⟩
  | 27 => ⟨S8x512x542x1, .f32⟩
  | 28 => ⟨S8x512x512x1x1, .f32⟩
  | 29 => ⟨S8x512x512x1, .f32⟩
  | 30 => ⟨S_, .i32⟩
  | 31 => ⟨S1, .i32⟩
  | 32 => ⟨S8x512x542x1, .f32⟩
  | 33 => ⟨S8x512x512x1x1, .f32⟩
  | 34 => ⟨S8x512x512x1, .f32⟩
  | 35 => ⟨S_, .i32⟩
  | 36 => ⟨S1, .i32⟩
  | 37 => ⟨S8x512x542x1, .f32⟩
  | 38 => ⟨S8x512x512x1x1, .f32⟩
  | 39 => ⟨S8x512x512x1, .f32⟩
  | 40 => ⟨S_, .i32⟩
  | 41 => ⟨S1, .i32⟩
  | 42 => ⟨S8x512x542x1, .f32⟩
  | 43 => ⟨S8x512x512x1x1, .f32⟩
  | 44 => ⟨S8x512x512x1, .f32⟩
  | 45 => ⟨S_, .i32⟩
  | 46 => ⟨S1, .i32⟩
  | 47 => ⟨S8x512x542x1, .f32⟩
  | 48 => ⟨S8x512x512x1x1, .f32⟩
  | 49 => ⟨S8x512x512x1, .f32⟩
  | 50 => ⟨S_, .i32⟩
  | 51 => ⟨S1, .i32⟩
  | 52 => ⟨S8x512x542x1, .f32⟩
  | 53 => ⟨S8x512x512x1x1, .f32⟩
  | 54 => ⟨S8x512x512x1, .f32⟩
  | 55 => ⟨S_, .i32⟩
  | 56 => ⟨S1, .i32⟩
  | 57 => ⟨S8x512x542x1, .f32⟩
  | 58 => ⟨S8x512x512x1x1, .f32⟩
  | 59 => ⟨S8x512x512x1, .f32⟩
  | 60 => ⟨S_, .i32⟩
  | 61 => ⟨S1, .i32⟩
  | 62 => ⟨S8x512x542x1, .f32⟩
  | 63 => ⟨S8x512x512x1x1, .f32⟩
  | 64 => ⟨S8x512x512x1, .f32⟩
  | 65 => ⟨S_, .i32⟩
  | 66 => ⟨S1, .i32⟩
  | 67 => ⟨S8x512x542x1, .f32⟩
  | 68 => ⟨S8x512x512x1x1, .f32⟩
  | 69 => ⟨S8x512x512x1, .f32⟩
  | 70 => ⟨S_, .i32⟩
  | 71 => ⟨S1, .i32⟩
  | 72 => ⟨S8x512x542x1, .f32⟩
  | 73 => ⟨S8x512x512x1x1, .f32⟩
  | 74 => ⟨S8x512x512x1, .f32⟩
  | 75 => ⟨S_, .i32⟩
  | 76 => ⟨S1, .i32⟩
  | 77 => ⟨S8x512x542x1, .f32⟩
  | 78 => ⟨S8x512x512x1x1, .f32⟩
  | 79 => ⟨S8x512x512x1, .f32⟩
  | 80 => ⟨S_, .i32⟩
  | 81 => ⟨S1, .i32⟩
  | 82 => ⟨S8x512x542x1, .f32⟩
  | 83 => ⟨S8x512x512x1x1, .f32⟩
  | 84 => ⟨S8x512x512x1, .f32⟩
  | 85 => ⟨S_, .i32⟩
  | 86 => ⟨S1, .i32⟩
  | 87 => ⟨S8x512x542x1, .f32⟩
  | 88 => ⟨S8x512x512x1x1, .f32⟩
  | 89 => ⟨S8x512x512x1, .f32⟩
  | 90 => ⟨S_, .i32⟩
  | 91 => ⟨S1, .i32⟩
  | 92 => ⟨S8x512x542x1, .f32⟩
  | 93 => ⟨S8x512x512x1x1, .f32⟩
  | 94 => ⟨S8x512x512x1, .f32⟩
  | 95 => ⟨S_, .i32⟩
  | 96 => ⟨S1, .i32⟩
  | 97 => ⟨S8x512x542x1, .f32⟩
  | 98 => ⟨S8x512x512x1x1, .f32⟩
  | 99 => ⟨S8x512x512x1, .f32⟩
  | 100 => ⟨S_, .i32⟩
  | 101 => ⟨S1, .i32⟩
  | 102 => ⟨S8x512x542x1, .f32⟩
  | 103 => ⟨S8x512x512x1x1, .f32⟩
  | 104 => ⟨S8x512x512x1, .f32⟩
  | 105 => ⟨S_, .i32⟩
  | 106 => ⟨S1, .i32⟩
  | 107 => ⟨S8x512x542x1, .f32⟩
  | 108 => ⟨S8x512x512x1x1, .f32⟩
  | 109 => ⟨S8x512x512x1, .f32⟩
  | 110 => ⟨S_, .i32⟩
  | 111 => ⟨S1, .i32⟩
  | 112 => ⟨S8x512x542x1, .f32⟩
  | 113 => ⟨S8x512x512x1x1, .f32⟩
  | 114 => ⟨S8x512x512x1, .f32⟩
  | 115 => ⟨S_, .i32⟩
  | 116 => ⟨S1, .i32⟩
  | 117 => ⟨S8x512x542x1, .f32⟩
  | 118 => ⟨S8x512x512x1x1, .f32⟩
  | 119 => ⟨S8x512x512x1, .f32⟩
  | 120 => ⟨S_, .i32⟩
  | 121 => ⟨S1, .i32⟩
  | 122 => ⟨S8x512x542x1, .f32⟩
  | 123 => ⟨S8x512x512x1x1, .f32⟩
  | 124 => ⟨S8x512x512x1, .f32⟩
  | 125 => ⟨S_, .i32⟩
  | 126 => ⟨S1, .i32⟩
  | 127 => ⟨S8x512x542x1, .f32⟩
  | _ => ⟨S8x512x512x31, .f32⟩

abbrev hbmTy0_1 (i : Nat) : BufTy := match i % 128 with
  | 0 => ⟨S8x512x512x1x1, .f32⟩
  | 1 => ⟨S8x512x512x1, .f32⟩
  | 2 => ⟨S_, .i32⟩
  | 3 => ⟨S1, .i32⟩
  | 4 => ⟨S8x512x542x1, .f32⟩
  | 5 => ⟨S8x512x512x1x1, .f32⟩
  | 6 => ⟨S8x512x512x1, .f32⟩
  | 7 => ⟨S_, .i32⟩
  | 8 => ⟨S1, .i32⟩
  | 9 => ⟨S8x512x542x1, .f32⟩
  | 10 => ⟨S8x512x512x1x1, .f32⟩
  | 11 => ⟨S8x512x512x1, .f32⟩
  | 12 => ⟨S_, .i32⟩
  | 13 => ⟨S1, .i32⟩
  | 14 => ⟨S8x512x542x1, .f32⟩
  | 15 => ⟨S8x512x512x1x1, .f32⟩
  | 16 => ⟨S8x512x512x1, .f32⟩
  | 17 => ⟨S_, .i32⟩
  | 18 => ⟨S1, .i32⟩
  | 19 => ⟨S8x512x542x1, .f32⟩
  | 20 => ⟨S8x512x512x1x1, .f32⟩
  | 21 => ⟨S8x512x512x1, .f32⟩
  | 22 => ⟨S_, .i32⟩
  | 23 => ⟨S1, .i32⟩
  | 24 => ⟨S8x512x542x1, .f32⟩
  | 25 => ⟨S8x512x512x1x1, .f32⟩
  | 26 => ⟨S8x512x512x1, .f32⟩
  | 27 => ⟨S_, .i32⟩
  | 28 => ⟨S1, .i32⟩
  | 29 => ⟨S8x512x542x1, .f32⟩
  | 30 => ⟨S8x512x512x1x1, .f32⟩
  | 31 => ⟨S8x512x512x1, .f32⟩
  | 32 => ⟨S_, .i32⟩
  | 33 => ⟨S1, .i32⟩
  | 34 => ⟨S8x512x542x1, .f32⟩
  | 35 => ⟨S_, .f32⟩
  | 36 => ⟨S_, .f32⟩
  | 37 => ⟨S8x512x542x1, .f32⟩
  | 38 => ⟨S8x512x542x1, .f32⟩
  | _ => ⟨S8x512x512x31, .f32⟩

abbrev hbmTy (i : Nat) : BufTy := match i / 128 with
  | 0 => hbmTy0_0 i
  | 1 => hbmTy0_1 i
  | _ => ⟨S8x512x512x31, .f32⟩

abbrev bufTy : (tb : Table) → Fin (tcTables nBuf tb) → BufTy
  | .hbm, ⟨i, _⟩ => hbmTy i
  | _, _ => ⟨S8x512x512x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c_15 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_16 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_17 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_c_18 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c_19 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c_20 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_21 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_22 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_c_23 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c_24 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_c_25 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_c_26 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_c_27 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_c_28 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_29 : Ref sig .tc := ⟨.hbm, 160, rfl⟩
abbrev main_v127 : Ref sig .tc := ⟨.hbm, 161, rfl⟩
abbrev main_v128 : Ref sig .tc := ⟨.hbm, 162, rfl⟩
abbrev main_cst_30 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩

abbrev nD : Nat := 1
abbrev τ : Topo := Topo.v7x

variable {F : FTy → Type} [FloatOps F]

class Facts₀ : Prop where
  bcast_S1x512x512x31_S1x512x512x31x1_0_1_2_3 : S1x512x512x31.BroadcastsInDim S1x512x512x31x1 (![0, 1, 2, 3] : Fin 4 → Fin S1x512x512x31x1.rank)
  bcast_S8x512x512x31_S8x512x512x31x1_0_1_2_3 : S8x512x512x31.BroadcastsInDim S8x512x512x31x1 (![0, 1, 2, 3] : Fin 4 → Fin S8x512x512x31x1.rank)
  bcast_S1x512x512x31x1_S8x512x512x31x1_0_1_2_3_4 : S1x512x512x31x1.BroadcastsInDim S8x512x512x31x1 (![0, 1, 2, 3, 4] : Fin 5 → Fin S8x512x512x31x1.rank)
  bcast_S_S8x512x542x1 : S_.BroadcastsInDim S8x512x542x1 (![] : Fin 0 → Fin S8x512x542x1.rank)
  slices_S8x512x512x31x1_S8x512x512x1x1_0_0_0_0_0 : S8x512x512x31x1.Slices ![0, 0, 0, 0, 0] S8x512x512x1x1
  shapeCasts_S8x512x512x1x1_S8x512x512x1 : S8x512x512x1x1.ShapeCasts S8x512x512x1
  bcast_S_S1 : S_.BroadcastsInDim S1 (![] : Fin 0 → Fin S1.rank)
  slices_S8x512x512x31x1_S8x512x512x1x1_0_0_0_1_0 : S8x512x512x31x1.Slices ![0, 0, 0, 1, 0] S8x512x512x1x1
  slices_S8x512x512x31x1_S8x512x512x1x1_0_0_0_2_0 : S8x512x512x31x1.Slices ![0, 0, 0, 2, 0] S8x512x512x1x1
  slices_S8x512x512x31x1_S8x512x512x1x1_0_0_0_3_0 : S8x512x512x31x1.Slices ![0, 0, 0, 3, 0] S8x512x512x1x1
  slices_S8x512x512x31x1_S8x512x512x1x1_0_0_0_4_0 : S8x512x512x31x1.Slices ![0, 0, 0, 4, 0] S8x512x512x1x1
  slices_S8x512x512x31x1_S8x512x512x1x1_0_0_0_5_0 : S8x512x512x31x1.Slices ![0, 0, 0, 5, 0] S8x512x512x1x1
  slices_S8x512x512x31x1_S8x512x512x1x1_0_0_0_6_0 : S8x512x512x31x1.Slices ![0, 0, 0, 6, 0] S8x512x512x1x1
  slices_S8x512x512x31x1_S8x512x512x1x1_0_0_0_7_0 : S8x512x512x31x1.Slices ![0, 0, 0, 7, 0] S8x512x512x1x1
  slices_S8x512x512x31x1_S8x512x512x1x1_0_0_0_8_0 : S8x512x512x31x1.Slices ![0, 0, 0, 8, 0] S8x512x512x1x1
  slices_S8x512x512x31x1_S8x512x512x1x1_0_0_0_9_0 : S8x512x512x31x1.Slices ![0, 0, 0, 9, 0] S8x512x512x1x1
  slices_S8x512x512x31x1_S8x512x512x1x1_0_0_0_10_0 : S8x512x512x31x1.Slices ![0, 0, 0, 10, 0] S8x512x512x1x1
  slices_S8x512x512x31x1_S8x512x512x1x1_0_0_0_11_0 : S8x512x512x31x1.Slices ![0, 0, 0, 11, 0] S8x512x512x1x1
  slices_S8x512x512x31x1_S8x512x512x1x1_0_0_0_12_0 : S8x512x512x31x1.Slices ![0, 0, 0, 12, 0] S8x512x512x1x1
  slices_S8x512x512x31x1_S8x512x512x1x1_0_0_0_13_0 : S8x512x512x31x1.Slices ![0, 0, 0, 13, 0] S8x512x512x1x1
  slices_S8x512x512x31x1_S8x512x512x1x1_0_0_0_14_0 : S8x512x512x31x1.Slices ![0, 0, 0, 14, 0] S8x512x512x1x1
  slices_S8x512x512x31x1_S8x512x512x1x1_0_0_0_15_0 : S8x512x512x31x1.Slices ![0, 0, 0, 15, 0] S8x512x512x1x1
  slices_S8x512x512x31x1_S8x512x512x1x1_0_0_0_16_0 : S8x512x512x31x1.Slices ![0, 0, 0, 16, 0] S8x512x512x1x1
  slices_S8x512x512x31x1_S8x512x512x1x1_0_0_0_17_0 : S8x512x512x31x1.Slices ![0, 0, 0, 17, 0] S8x512x512x1x1
  slices_S8x512x512x31x1_S8x512x512x1x1_0_0_0_18_0 : S8x512x512x31x1.Slices ![0, 0, 0, 18, 0] S8x512x512x1x1
  slices_S8x512x512x31x1_S8x512x512x1x1_0_0_0_19_0 : S8x512x512x31x1.Slices ![0, 0, 0, 19, 0] S8x512x512x1x1
  slices_S8x512x512x31x1_S8x512x512x1x1_0_0_0_20_0 : S8x512x512x31x1.Slices ![0, 0, 0, 20, 0] S8x512x512x1x1
  slices_S8x512x512x31x1_S8x512x512x1x1_0_0_0_21_0 : S8x512x512x31x1.Slices ![0, 0, 0, 21, 0] S8x512x512x1x1
  slices_S8x512x512x31x1_S8x512x512x1x1_0_0_0_22_0 : S8x512x512x31x1.Slices ![0, 0, 0, 22, 0] S8x512x512x1x1
  slices_S8x512x512x31x1_S8x512x512x1x1_0_0_0_23_0 : S8x512x512x31x1.Slices ![0, 0, 0, 23, 0] S8x512x512x1x1
  slices_S8x512x512x31x1_S8x512x512x1x1_0_0_0_24_0 : S8x512x512x31x1.Slices ![0, 0, 0, 24, 0] S8x512x512x1x1
  slices_S8x512x512x31x1_S8x512x512x1x1_0_0_0_25_0 : S8x512x512x31x1.Slices ![0, 0, 0, 25, 0] S8x512x512x1x1
  slices_S8x512x512x31x1_S8x512x512x1x1_0_0_0_26_0 : S8x512x512x31x1.Slices ![0, 0, 0, 26, 0] S8x512x512x1x1
  slices_S8x512x512x31x1_S8x512x512x1x1_0_0_0_27_0 : S8x512x512x31x1.Slices ![0, 0, 0, 27, 0] S8x512x512x1x1
  slices_S8x512x512x31x1_S8x512x512x1x1_0_0_0_28_0 : S8x512x512x31x1.Slices ![0, 0, 0, 28, 0] S8x512x512x1x1
  slices_S8x512x512x31x1_S8x512x512x1x1_0_0_0_29_0 : S8x512x512x31x1.Slices ![0, 0, 0, 29, 0] S8x512x512x1x1
  slices_S8x512x512x31x1_S8x512x512x1x1_0_0_0_30_0 : S8x512x512x31x1.Slices ![0, 0, 0, 30, 0] S8x512x512x1x1
  reducesTo_S8x512x542x1_S_d0_1_2_3 : S8x512x542x1.ReducesTo [0, 1, 2, 3] S_
  h_S_ : 0 < S_.numel
  scatter_S8x512x542x1_S1_S8x512x512x1_0123_n_2_0_wf : ScatterDims.WF S8x512x542x1 S1 S8x512x512x1 [0, 1, 2, 3] [] [2] 0

variable [Facts₀]

def scatter_S8x512x542x1_S1_S8x512x512x1_0123_n_2_0 : ScatterDims S8x512x542x1 S1 S8x512x512x1 where
  updateWindowDims := [0, 1, 2, 3]
  insertedWindowDims := []
  scatterDimsToOperandDims := [2]
  indexVectorDim := 0
  wf := scatter_S8x512x542x1_S1_S8x512x512x1_0123_n_2_0_wf

class Facts : Prop extends Facts₀ where

variable [Facts]
-- ==== Proof.LibShiftSum.lean ====
/-
  The shifted band sum: the one function both programs compute before normalising.

  A spectral cube X[b, m, w, k] is masked by a coded aperture H[0, m, w, k] and every band k is laid down on a wider
  detector row shifted right by k columns; detector column c collects the bands whose shifted window reaches it:

      Y[b, m, c] = Σ_{k < L, k ≤ c < k + W}  X[b, m, c − k, k] · H[0, m, c − k, k].

  `shiftSum W n P c` is that sum for the first n bands, over ANY commutative additive monoid, with the band's entry given
  as a function P w k of natural-number coordinates, so that neither side has to build dependent indices. Adding a band
  either adds its entry (the window covers c) or adds nothing (it does not): `shiftSum_succ`, `shiftSum_succ_of_hit`,
  `shiftSum_succ_of_miss`. `at4` reads a rank-4 array at natural-number coordinates (zero outside the array), which is
  how P is spelt from an array; inside the sum every read is in range.
-/
import Idealize.ShloMosaic.Lib.ValueIdx
import Mathlib.Algebra.BigOperators.Intervals

noncomputable section

namespace Cert.ShiftSum

open Idealize.ShloMosaic Idealize.ShloMosaic.ValueIdx

/-- A rank-4 array read at natural-number coordinates: its entry where all four are in range, zero elsewhere. -/
def at4 {α : Type} [Zero α] {n0 n1 n2 n3 : Nat} (x : (⟨4, ![n0, n1, n2, n3]⟩ : Shape).Idx → α) (a b c d : Nat) : α :=
  if h : a < n0 ∧ b < n1 ∧ c < n2 ∧ d < n3 then x (ix4 ⟨a, h.1⟩ ⟨b, h.2.1⟩ ⟨c, h.2.2.1⟩ ⟨d, h.2.2.2⟩) else 0

/-- In range, `at4` is the entry. -/
theorem at4_of_lt {α : Type} [Zero α] {n0 n1 n2 n3 : Nat} (x : (⟨4, ![n0, n1, n2, n3]⟩ : Shape).Idx → α)
    (a : Fin n0) (b : Fin n1) (c : Fin n2) (d : Fin n3) : at4 x a.val b.val c.val d.val = x (ix4 a b c d) := by
  unfold at4
  rw [dif_pos ⟨a.isLt, b.isLt, c.isLt, d.isLt⟩]

/-- Out of range on any axis, `at4` is zero. -/
theorem at4_of_not {α : Type} [Zero α] {n0 n1 n2 n3 : Nat} (x : (⟨4, ![n0, n1, n2, n3]⟩ : Shape).Idx → α)
    (a b c d : Nat) (h : ¬(a < n0 ∧ b < n1 ∧ c < n2 ∧ d < n3)) : at4 x a b c d = 0 := by
  unfold at4
  rw [dif_neg h]

variable {α : Type} [AddCommMonoid α]

/-- The first `n` bands' contributions to detector column `c`: band `k`, of width `W`, shifted right by `k`, gives its
    entry `P (c - k) k` when `k ≤ c < k + W` and nothing otherwise. -/
def shiftSum (W n : Nat) (P : Nat → Nat → α) (c : Nat) : α :=
  ∑ k ∈ Finset.range n, if k ≤ c ∧ c < k + W then P (c - k) k else 0

theorem shiftSum_zero (W : Nat) (P : Nat → Nat → α) (c : Nat) : shiftSum W 0 P c = 0 := by
  unfold shiftSum; exact Finset.sum_range_zero _

/-- One more band: the sum so far plus that band's contribution. -/
theorem shiftSum_succ (W n : Nat) (P : Nat → Nat → α) (c : Nat) :
    shiftSum W (n + 1) P c = shiftSum W n P c + (if n ≤ c ∧ c < n + W then P (c - n) n else 0) := by
  unfold shiftSum; exact Finset.sum_range_succ _ n

/-- One more band whose window covers `c`: its entry is added. -/
theorem shiftSum_succ_of_hit (W n : Nat) (P : Nat → Nat → α) (c : Nat) (h : n ≤ c ∧ c < n + W) :
    shiftSum W (n + 1) P c = shiftSum W n P c + P (c - n) n := by
  rw [shiftSum_succ, if_pos h]

/-- One more band whose window misses `c`: nothing changes. -/
theorem shiftSum_succ_of_miss (W n : Nat) (P : Nat → Nat → α) (c : Nat) (h : ¬(n ≤ c ∧ c < n + W)) :
    shiftSum W (n + 1) P c = shiftSum W n P c := by
  rw [shiftSum_succ, if_neg h, add_zero]

/-- The sum only reads band entries `P w k` with `k < n` and `w < W`. -/
theorem shiftSum_congr (W n : Nat) (P Q : Nat → Nat → α) (c : Nat) (h : ∀ k, k < n → ∀ w, w < W → P w k = Q w k) :
    shiftSum W n P c = shiftSum W n Q c := by
  unfold shiftSum
  refine Finset.sum_congr rfl fun k hk => ?_
  by_cases hc : k ≤ c ∧ c < k + W
  · rw [if_pos hc, if_pos hc]; exact h k (Finset.mem_range.1 hk) (c - k) (by omega)
  · rw [if_neg hc, if_neg hc]

end Cert.ShiftSum

end
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.LibBandPad.lean ====
/-
  One band of the shifted band sum, as the kernel body lays it down.

  A band is a [128, 512] block v. Shifted right by K columns on a 640-wide row it is the three-piece column join
  [ z … z | v | z … z ] of K columns of a filler z, the block, and B more columns of z (K + 512 + B = 640); band 0 has
  no left piece. Read at (r, c) the join is v (r, c − K) when K ≤ c < K + 512 and z elsewhere (pad3_apply, pad2_apply):
  exactly the contribution of band K to detector column c in the shifted band sum. The block itself is row K of the
  middle axis of a [128, 31, 512] product cube (slice_row_apply), and the filler is the integer 0 converted to a float,
  which is the extended real 0 (sitofp_zero). Adding such a band to a running sum that holds the first K bands gives the
  first K + 1 bands (acc_step): when the band's window misses column c it adds 0.
-/
import Idealize.ShloMosaic.Lib.Pipeline.Value
import Idealize.ShloMosaic.Lib.ValueIdx
import Idealize.ShloMosaic.PureOps.Ideal.Laws
import proofs.«123080_j38439957299668_2_alg».proof.Proof.LibColumnJoin
import proofs.«123080_j38439957299668_2_alg».proof.Proof.LibShiftSum

noncomputable section

namespace Cert.BandPad

open Idealize.ShloMosaic Idealize.ShloMosaic.ValueIdx Idealize.ShloMosaic.ColumnJoin Cert.ShiftSum

section Generic
variable {α : Type}

/-- The three-piece row [ z × K | v | z × B ] read at (r, c): the block's entry (r, c − K) inside the window
    K ≤ c < K + W, the filler outside. The block's row r is given as a function g of the column. -/
theorem pad3_apply {R K W KW B N : Nat} (z : α) (v : (⟨2, ![R, W]⟩ : Shape).Idx → α)
    (h1 : Shape.Concatenates [(⟨2, ![R, K]⟩ : Shape), ⟨2, ![R, W]⟩] ⟨2, ![R, KW]⟩ 1)
    (h2 : Shape.Concatenates [(⟨2, ![R, KW]⟩ : Shape), ⟨2, ![R, B]⟩] ⟨2, ![R, N]⟩ 1)
    (hKW : KW = K + W) (hN : N = KW + B) (r : Fin R) (c : Fin N) (g : Nat → α)
    (hg : ∀ w : Fin W, v (ix2 r w) = g w.val) :
    concatenate (⟨2, ![R, N]⟩ : Shape) 1
        [⟨⟨2, ![R, KW]⟩, concatenate (⟨2, ![R, KW]⟩ : Shape) 1
            [⟨⟨2, ![R, K]⟩, broadcast (⟨2, ![R, K]⟩ : Shape) z⟩, ⟨⟨2, ![R, W]⟩, v⟩] h1⟩,
         ⟨⟨2, ![R, B]⟩, broadcast (⟨2, ![R, B]⟩ : Shape) z⟩] h2 (ix2 r c)
      = if K ≤ c.val ∧ c.val < K + W then g (c.val - K) else z := by
  have hc := c.isLt
  by_cases hlt : c.val < KW
  · -- the column falls in the first piece [ z × K | v ]
    refine (join_cols_left _ _ h2 r c ⟨c.val, hlt⟩ rfl).trans ?_
    by_cases hK : c.val < K
    · -- … in its filler
      refine (join_cols_left _ _ h1 r ⟨c.val, hlt⟩ ⟨c.val, hK⟩ rfl).trans ?_
      rw [if_neg (by omega)]; rfl
    · -- … in the block, at column c − K
      refine (join_cols_right _ _ h1 r ⟨c.val, hlt⟩ ⟨c.val - K, by omega⟩ (by show c.val = K + (c.val - K); omega)).trans ?_
      rw [if_pos (by omega)]; exact hg ⟨c.val - K, by omega⟩
  · -- the column falls in the trailing filler
    refine (join_cols_right _ _ h2 r c ⟨c.val - KW, by omega⟩ (by show c.val = KW + (c.val - KW); omega)).trans ?_
    rw [if_neg (by omega)]; rfl

/-- Band 0, with no left filler: the two-piece row [ v | z × B ] read at (r, c). -/
theorem pad2_apply {R W B N : Nat} (z : α) (v : (⟨2, ![R, W]⟩ : Shape).Idx → α)
    (h : Shape.Concatenates [(⟨2, ![R, W]⟩ : Shape), ⟨2, ![R, B]⟩] ⟨2, ![R, N]⟩ 1)
    (hN : N = W + B) (r : Fin R) (c : Fin N) (g : Nat → α) (hg : ∀ w : Fin W, v (ix2 r w) = g w.val) :
    concatenate (⟨2, ![R, N]⟩ : Shape) 1 [⟨⟨2, ![R, W]⟩, v⟩, ⟨⟨2, ![R, B]⟩, broadcast (⟨2, ![R, B]⟩ : Shape) z⟩] h (ix2 r c)
      = if 0 ≤ c.val ∧ c.val < 0 + W then g (c.val - 0) else z := by
  have hc := c.isLt
  by_cases hlt : c.val < W
  · refine (join_cols_left _ _ h r c ⟨c.val, hlt⟩ rfl).trans ?_
    rw [if_pos (by omega)]; exact hg ⟨c.val, hlt⟩
  · refine (join_cols_right _ _ h r c ⟨c.val - W, by omega⟩ (by show c.val = W + (c.val - W); omega)).trans ?_
    rw [if_neg (by omega)]; rfl

/-- Row K of the middle axis of a [128, 31, 512] cube, cut out as a [128, 1, 512] slab and viewed as a [128, 512]
    block, read at (r, w): the cube at (r, K, w). -/
theorem slice_row_apply (K : Nat) (hK : K < 31) (v : (⟨3, ![128, 31, 512]⟩ : Shape).Idx → α)
    (hs : (⟨3, ![128, 31, 512]⟩ : Shape).Slices ![0, K, 0] ⟨3, ![128, 1, 512]⟩)
    (hc : (⟨3, ![128, 1, 512]⟩ : Shape).ShapeCasts ⟨2, ![128, 512]⟩) (r : Fin 128) (w : Fin 512) :
    shapeCast (⟨2, ![128, 512]⟩ : Shape) (extractStridedSlice (⟨3, ![128, 1, 512]⟩ : Shape) ![0, K, 0] v hs) hc (ix2 r w)
      = v (ix3 r ⟨K, hK⟩ w) := by
  have hr := r.isLt
  have hw := w.isLt
  refine (shapeCast_apply _ hc (ix2 r w) (ix3 r (⟨0, Nat.one_pos⟩ : Fin 1) w) ?_).trans ?_
  · rewrite [Shape.rowMajor_val_three, Shape.rowMajor_val_two]
    show (r.val * 1 + 0) * 512 + w.val = r.val * 512 + w.val
    omega
  · exact extractStridedSlice_apply ![0, K, 0] v hs (ix3 r (⟨0, Nat.one_pos⟩ : Fin 1) w) (ix3 r ⟨K, hK⟩ w) (fun a => match a with
      | ⟨0, _⟩ => by show r.val = 0 + r.val; omega
      | ⟨1, _⟩ => by show K = K + 0; omega
      | ⟨2, _⟩ => by show w.val = 0 + w.val; omega)

end Generic

/-- The integer 0 converted to a float is the extended real 0. -/
theorem sitofp_zero : Scalar.sitofp (F := Ideal) .f32 (0#32 : BitVec 32) = (0 : EReal) := by
  rw [Ideal.scalar_sitofp_def]
  simp

/-- The float constant with the all-zero word is the extended real 0. -/
theorem ofBits_zero : Scalar.ofBits (F := Ideal) .f32 0x00000000#32 = (0 : EReal) :=
  Ideal.ofBits_zero_f32

/-- Adding band K to a running sum of the first K bands gives the first K + 1 bands, column by column: the band adds
    its entry where its window covers the column and 0 where it does not. -/
theorem acc_step {s : Shape} (W K K' : Nat) (hK' : K' = K + 1) (P : Nat → Nat → EReal) (acc pad : FVec Ideal s .f32)
    (j : s.Idx) (c : Nat) (hacc : acc j = shiftSum W K P c)
    (hpad : pad j = if K ≤ c ∧ c < K + W then P (c - K) K else 0) :
    addf acc pad j = shiftSum W K' P c := by
  subst hK'
  rw [shiftSum_succ, ← hacc, ← hpad]
  rfl

/-- Band K of the kernel body, K ≥ 1: the three-piece row over the zero filler, with the block cut out of the product
    cube v4, read at (r, c), is band K's contribution to detector column c. -/
theorem band_pad (K KW B : Nat) (hK : K < 31) (hKW : KW = K + 512) (hN : 640 = KW + B)
    (v4 : FVec Ideal ⟨3, ![128, 31, 512]⟩ .f32) (P : Nat → Nat → EReal) (r : Fin 128)
    (hv4 : ∀ (k : Fin 31) (w : Fin 512), v4 (ix3 r k w) = P w.val k.val)
    (hs : (⟨3, ![128, 31, 512]⟩ : Shape).Slices ![0, K, 0] ⟨3, ![128, 1, 512]⟩)
    (hc : (⟨3, ![128, 1, 512]⟩ : Shape).ShapeCasts ⟨2, ![128, 512]⟩)
    (h1 : Shape.Concatenates [(⟨2, ![128, K]⟩ : Shape), ⟨2, ![128, 512]⟩] ⟨2, ![128, KW]⟩ 1)
    (h2 : Shape.Concatenates [(⟨2, ![128, KW]⟩ : Shape), ⟨2, ![128, B]⟩] ⟨2, ![128, 640]⟩ 1)
    (c : Fin 640) :
    (concatenate (⟨2, ![128, 640]⟩ : Shape) 1
        [⟨⟨2, ![128, KW]⟩, concatenate (⟨2, ![128, KW]⟩ : Shape) 1
            [⟨⟨2, ![128, K]⟩, broadcast (⟨2, ![128, K]⟩ : Shape) (Scalar.sitofp (F := Ideal) .f32 (0#32 : BitVec 32))⟩,
             ⟨⟨2, ![128, 512]⟩, shapeCast (⟨2, ![128, 512]⟩ : Shape)
                (extractStridedSlice (⟨3, ![128, 1, 512]⟩ : Shape) ![0, K, 0] v4 hs) hc⟩] h1⟩,
         ⟨⟨2, ![128, B]⟩, broadcast (⟨2, ![128, B]⟩ : Shape) (Scalar.sitofp (F := Ideal) .f32 (0#32 : BitVec 32))⟩] h2
        : FVec Ideal ⟨2, ![128, 640]⟩ .f32) (ix2 r c)
      = if K ≤ c.val ∧ c.val < K + 512 then P (c.val - K) K else 0 := by
  refine (pad3_apply _ _ h1 h2 hKW hN r c (fun w => P w K) (fun w => ?_)).trans ?_
  · exact (slice_row_apply K hK v4 hs hc r w).trans (hv4 ⟨K, hK⟩ w)
  · rw [sitofp_zero]

/-- Band 0 of the kernel body: the two-piece row, read at (r, c). -/
theorem band_pad0 (v4 : FVec Ideal ⟨3, ![128, 31, 512]⟩ .f32) (P : Nat → Nat → EReal) (r : Fin 128)
    (hv4 : ∀ (k : Fin 31) (w : Fin 512), v4 (ix3 r k w) = P w.val k.val)
    (hs : (⟨3, ![128, 31, 512]⟩ : Shape).Slices ![0, 0, 0] ⟨3, ![128, 1, 512]⟩)
    (hc : (⟨3, ![128, 1, 512]⟩ : Shape).ShapeCasts ⟨2, ![128, 512]⟩)
    (h : Shape.Concatenates [(⟨2, ![128, 512]⟩ : Shape), ⟨2, ![128, 128]⟩] ⟨2, ![128, 640]⟩ 1)
    (c : Fin 640) :
    (concatenate (⟨2, ![128, 640]⟩ : Shape) 1
        [⟨⟨2, ![128, 512]⟩, shapeCast (⟨2, ![128, 512]⟩ : Shape)
            (extractStridedSlice (⟨3, ![128, 1, 512]⟩ : Shape) ![0, 0, 0] v4 hs) hc⟩,
         ⟨⟨2, ![128, 128]⟩, broadcast (⟨2, ![128, 128]⟩ : Shape) (Scalar.sitofp (F := Ideal) .f32 (0#32 : BitVec 32))⟩] h
        : FVec Ideal ⟨2, ![128, 640]⟩ .f32) (ix2 r c)
      = if 0 ≤ c.val ∧ c.val < 0 + 512 then P (c.val - 0) 0 else 0 := by
  refine (pad2_apply _ _ h rfl r c (fun w => P w 0) (fun w => ?_)).trans ?_
  · exact (slice_row_apply 0 (by omega) v4 hs hc r w).trans (hv4 ⟨0, by omega⟩ w)
  · rw [sitofp_zero]

end Cert.BandPad

end
-- ==== Proof.KernelBands.lean ====
/-
  The kernel body's payloads, each as a stretch of the shifted band sum.

  The body multiplies the cube's block by the mask's block into a product cube v4 : [128, 31, 512] (band on the middle
  axis), starts a [128, 640] running sum at zero, and for each band K = 0, …, 30 adds the band's row-block shifted right
  by K columns and padded with zeros to 640 columns. The generated skeleton cuts this straight-line computation into
  payload functions at fixed statement counts, so a payload covers a run of consecutive bands (and two of the cuts fall
  inside a band's padding, whose halves are then put back together here by unfolding the neighbouring payloads
  together). With P w k the product cube's entry at (r, k, w), each lemma says: if the running sum handed in holds the
  first K bands on row r, the payload returns the first K' bands on row r — one application of the one-band step per
  band added, the band's padded row being that band's contribution to each detector column.
-/
import proofs.«123080_j38439957299668_2_alg».proof.Proof.Gen.KernelIdeal.Skeleton
import proofs.«123080_j38439957299668_2_alg».proof.Proof.LibBandPad

noncomputable section

namespace Cert.KernelBody

open Idealize.ShloMosaic Idealize.ShloMosaic.ValueIdx Cert.KernelIdeal Cert.KernelIdeal.Gen Cert.ShiftSum Cert.BandPad

/-- The product cube at (r, k, w): the two [1, 128, 31, 512] blocks, viewed without their unit axis, multiplied entry by
    entry — the cube's entry times the mask's entry at (0, r, k, w). -/
theorem pay1_apply (x0 x1 : Vec Ideal S1x128x31x512 .f32) (r : Fin 128) (k : Fin 31) (w : Fin 512) :
    k0_pay1 x0 x1 (ix3 r k w) = at4 x0 0 r.val k.val w.val * at4 x1 0 r.val k.val w.val := by
  unfold k0_pay1
  have e : ∀ x : Vec Ideal S1x128x31x512 .f32,
      shapeCast S128x31x512 x shapeCasts_S1x128x31x512_S128x31x512 (ix3 r k w) = at4 x 0 r.val k.val w.val := by
    intro x
    have hr := r.isLt
    have hk := k.isLt
    have hw := w.isLt
    refine (shapeCast_apply x _ (ix3 r k w) (ix4 (⟨0, Nat.one_pos⟩ : Fin 1) r k w) ?_).trans ?_
    · rewrite [Shape.rowMajor_val_four, Shape.rowMajor_val_three]
      show ((0 * 128 + r.val) * 31 + k.val) * 512 + w.val = (r.val * 31 + k.val) * 512 + w.val
      omega
    · exact (at4_of_lt x ⟨0, Nat.one_pos⟩ r k w).symm
  exact (mulf_apply _ _ _).trans (congrArg₂ (· * ·) (e x0) (e x1))

/-- Bands 0 to 4: from the zero row, the first payload returns the first five bands. -/
theorem pay2_sum (v0 v2 : Vec Ideal S1x128x31x512 .f32) (P : Nat → Nat → EReal) (r : Fin 128)
    (hv4 : ∀ (k : Fin 31) (w : Fin 512), k0_pay1 v0 v2 (ix3 r k w) = P w.val k.val) (c : Fin 640) :
    k0_pay2 v0 v2 (ix2 r c) = shiftSum 512 5 P c.val := by
  unfold k0_pay2
  generalize k0_pay1 v0 v2 = v4 at hv4 ⊢
  refine acc_step 512 4 5 rfl P _ _ _ _ ?_ (band_pad 4 516 124 (by omega) rfl rfl v4 P r hv4 _ _ _ _ c)
  refine acc_step 512 3 4 rfl P _ _ _ _ ?_ (band_pad 3 515 125 (by omega) rfl rfl v4 P r hv4 _ _ _ _ c)
  refine acc_step 512 2 3 rfl P _ _ _ _ ?_ (band_pad 2 514 126 (by omega) rfl rfl v4 P r hv4 _ _ _ _ c)
  refine acc_step 512 1 2 rfl P _ _ _ _ ?_ (band_pad 1 513 127 (by omega) rfl rfl v4 P r hv4 _ _ _ _ c)
  refine acc_step 512 0 1 rfl P _ _ _ _ ?_ (band_pad0 v4 P r hv4 _ _ _ c)
  -- the running sum starts at the zero constant: the empty sum
  exact ofBits_zero.trans (shiftSum_zero 512 P c.val).symm

/-- Bands 5 to 10. -/
theorem pay3_sum (v4 : FVec Ideal S128x31x512 .f32) (v43 : FVec Ideal S128x640 .f32) (P : Nat → Nat → EReal) (r : Fin 128)
    (hv4 : ∀ (k : Fin 31) (w : Fin 512), v4 (ix3 r k w) = P w.val k.val)
    (hacc : ∀ c : Fin 640, v43 (ix2 r c) = shiftSum 512 5 P c.val) (c : Fin 640) :
    k0_pay3 v4 v43 (ix2 r c) = shiftSum 512 11 P c.val := by
  unfold k0_pay3
  refine acc_step 512 10 11 rfl P _ _ _ _ ?_ (band_pad 10 522 118 (by omega) rfl rfl v4 P r hv4 _ _ _ _ c)
  refine acc_step 512 9 10 rfl P _ _ _ _ ?_ (band_pad 9 521 119 (by omega) rfl rfl v4 P r hv4 _ _ _ _ c)
  refine acc_step 512 8 9 rfl P _ _ _ _ ?_ (band_pad 8 520 120 (by omega) rfl rfl v4 P r hv4 _ _ _ _ c)
  refine acc_step 512 7 8 rfl P _ _ _ _ ?_ (band_pad 7 519 121 (by omega) rfl rfl v4 P r hv4 _ _ _ _ c)
  refine acc_step 512 6 7 rfl P _ _ _ _ ?_ (band_pad 6 518 122 (by omega) rfl rfl v4 P r hv4 _ _ _ _ c)
  refine acc_step 512 5 6 rfl P _ _ _ _ ?_ (band_pad 5 517 123 (by omega) rfl rfl v4 P r hv4 _ _ _ _ c)
  exact hacc c

/-- Bands 11 to 17. Band 11's padded row arrives in two halves — its zero filler and its left join [ 0 × 11 | block ] are
    the two payloads before this one — and is whole again once those are unfolded with it. -/
theorem pay6_sum (v4 : FVec Ideal S128x31x512 .f32) (v91 : FVec Ideal S128x640 .f32) (P : Nat → Nat → EReal) (r : Fin 128)
    (hv4 : ∀ (k : Fin 31) (w : Fin 512), v4 (ix3 r k w) = P w.val k.val)
    (hacc : ∀ c : Fin 640, v91 (ix2 r c) = shiftSum 512 11 P c.val) (c : Fin 640) :
    k0_pay6 v4 v91 (k0_pay4 (F := Ideal)) (k0_pay5 v4) (ix2 r c) = shiftSum 512 18 P c.val := by
  unfold k0_pay6 k0_pay5 k0_pay4
  refine acc_step 512 17 18 rfl P _ _ _ _ ?_ (band_pad 17 529 111 (by omega) rfl rfl v4 P r hv4 _ _ _ _ c)
  refine acc_step 512 16 17 rfl P _ _ _ _ ?_ (band_pad 16 528 112 (by omega) rfl rfl v4 P r hv4 _ _ _ _ c)
  refine acc_step 512 15 16 rfl P _ _ _ _ ?_ (band_pad 15 527 113 (by omega) rfl rfl v4 P r hv4 _ _ _ _ c)
  refine acc_step 512 14 15 rfl P _ _ _ _ ?_ (band_pad 14 526 114 (by omega) rfl rfl v4 P r hv4 _ _ _ _ c)
  refine acc_step 512 13 14 rfl P _ _ _ _ ?_ (band_pad 13 525 115 (by omega) rfl rfl v4 P r hv4 _ _ _ _ c)
  refine acc_step 512 12 13 rfl P _ _ _ _ ?_ (band_pad 12 524 116 (by omega) rfl rfl v4 P r hv4 _ _ _ _ c)
  refine acc_step 512 11 12 rfl P _ _ _ _ ?_ (band_pad 11 523 117 (by omega) rfl rfl v4 P r hv4 _ _ _ _ c)
  exact hacc c

/-- Bands 18 to 24. Band 18's block is the payload before this one, and its filler is the conversion of the integer 0
    handed in as a word. -/
theorem pay8_sum (v4 : FVec Ideal S128x31x512 .f32) (v147 : FVec Ideal S128x640 .f32) (P : Nat → Nat → EReal) (r : Fin 128)
    (hv4 : ∀ (k : Fin 31) (w : Fin 512), v4 (ix3 r k w) = P w.val k.val)
    (hacc : ∀ c : Fin 640, v147 (ix2 r c) = shiftSum 512 18 P c.val) (c : Fin 640) :
    k0_pay8 v4 v147 (k0_pay7 v4) (0#32 : BitVec 32) (ix2 r c) = shiftSum 512 25 P c.val := by
  unfold k0_pay8 k0_pay7
  refine acc_step 512 24 25 rfl P _ _ _ _ ?_ (band_pad 24 536 104 (by omega) rfl rfl v4 P r hv4 _ _ _ _ c)
  refine acc_step 512 23 24 rfl P _ _ _ _ ?_ (band_pad 23 535 105 (by omega) rfl rfl v4 P r hv4 _ _ _ _ c)
  refine acc_step 512 22 23 rfl P _ _ _ _ ?_ (band_pad 22 534 106 (by omega) rfl rfl v4 P r hv4 _ _ _ _ c)
  refine acc_step 512 21 22 rfl P _ _ _ _ ?_ (band_pad 21 533 107 (by omega) rfl rfl v4 P r hv4 _ _ _ _ c)
  refine acc_step 512 20 21 rfl P _ _ _ _ ?_ (band_pad 20 532 108 (by omega) rfl rfl v4 P r hv4 _ _ _ _ c)
  refine acc_step 512 19 20 rfl P _ _ _ _ ?_ (band_pad 19 531 109 (by omega) rfl rfl v4 P r hv4 _ _ _ _ c)
  refine acc_step 512 18 19 rfl P _ _ _ _ ?_ (band_pad 18 530 110 (by omega) rfl rfl v4 P r hv4 _ _ _ _ c)
  exact hacc c

/-- Bands 25 to 30, and the finished [128, 640] sum viewed as the [1, 128, 640] block that is stored: entry (0, r, c) of
    the block is entry (r, c) of the sum. -/
theorem pay9_sum (v4 : FVec Ideal S128x31x512 .f32) (v203 : FVec Ideal S128x640 .f32) (P : Nat → Nat → EReal) (r : Fin 128)
    (hv4 : ∀ (k : Fin 31) (w : Fin 512), v4 (ix3 r k w) = P w.val k.val)
    (hacc : ∀ c : Fin 640, v203 (ix2 r c) = shiftSum 512 25 P c.val) (c : Fin 640) :
    k0_pay9 v4 v203 (ix3 (0 : Fin 1) r c) = shiftSum 512 31 P c.val := by
  unfold k0_pay9
  have hr := r.isLt
  have hc := c.isLt
  have h0 : ((0 : Fin 1) : Nat) = 0 := rfl
  refine (shapeCast_apply _ shapeCasts_S128x640_S1x128x640 (ix3 (0 : Fin 1) r c) (ix2 r c) ?_).trans ?_
  · rewrite [Shape.rowMajor_val_two, Shape.rowMajor_val_three]
    show r.val * 640 + c.val = (((0 : Fin 1) : Nat) * 128 + r.val) * 640 + c.val
    omega
  refine acc_step 512 30 31 rfl P _ _ _ _ ?_ (band_pad 30 542 98 (by omega) rfl rfl v4 P r hv4 _ _ _ _ c)
  refine acc_step 512 29 30 rfl P _ _ _ _ ?_ (band_pad 29 541 99 (by omega) rfl rfl v4 P r hv4 _ _ _ _ c)
  refine acc_step 512 28 29 rfl P _ _ _ _ ?_ (band_pad 28 540 100 (by omega) rfl rfl v4 P r hv4 _ _ _ _ c)
  refine acc_step 512 27 28 rfl P _ _ _ _ ?_ (band_pad 27 539 101 (by omega) rfl rfl v4 P r hv4 _ _ _ _ c)
  refine acc_step 512 26 27 rfl P _ _ _ _ ?_ (band_pad 26 538 102 (by omega) rfl rfl v4 P r hv4 _ _ _ _ c)
  refine acc_step 512 25 26 rfl P _ _ _ _ ?_ (band_pad 25 537 103 (by omega) rfl rfl v4 P r hv4 _ _ _ _ c)
  exact hacc c

end Cert.KernelBody

end
-- ==== Proof.KernelBody.lean ====
/-
  What the kernel body stores, entry by entry: the shifted band sum of the two blocks it loads.

  The body loads its two whole [1, 128, 31, 512] staging blocks x0 (the cube's, bands on axis 2, width on axis 3) and x1
  (the mask's) and stores one whole [1, 128, 640] block. A load through the whole-buffer rectangle reads the buffer and a
  single covering store leaves its payload, so the stored block is the chain of payloads applied to x0 and x1; the
  payloads, one after the other, carry the running sum from no bands to all 31 (KernelBands), with the product cube's
  entry at (r, k, w) being x0 (0, r, k, w) · x1 (0, r, k, w). Hence entry (0, r, c) of the stored block is

      Σ_{k < 31, k ≤ c < k + 512}  x0 (0, r, k, c − k) · x1 (0, r, k, c − k).
-/
import proofs.«123080_j38439957299668_2_alg».proof.Proof.Gen.KernelIdeal.Frame
import proofs.«123080_j38439957299668_2_alg».proof.Proof.LibShiftSum
import proofs.«123080_j38439957299668_2_alg».proof.Proof.KernelBands

noncomputable section

namespace Cert.KernelBody

open Idealize.ShloMosaic Idealize.ShloMosaic.ValueIdx Cert.KernelIdeal Cert.ShiftSum

/-- The zero offsets of the rank-4 whole-buffer rectangle. -/
theorem hz4 : (![0, 0, 0, 0] : Fin 4 → Nat) = fun _ => 0 := funext fun a => by fin_cases a <;> rfl
/-- The zero offsets of the rank-3 whole-buffer rectangle. -/
theorem hz3 : (![0, 0, 0] : Fin 3 → Nat) = fun _ => 0 := funext fun a => by fin_cases a <;> rfl

/-- Entry (0, r, c) of the block the body stores is the shifted band sum over all 31 bands of the products of the two
    loaded blocks' entries. -/
theorem body_sum (x0 x1 : Vec Ideal S1x128x31x512 .f32) (r : Fin 128) (c : Fin 640) :
    Cert.KernelIdeal.Gen.out0_2 (F := Ideal) x0 x1 (ix3 (0 : Fin 1) r c)
      = shiftSum 512 31 (fun w k => at4 x0 0 r.val k w * at4 x1 0 r.val k w) c.val := by
  unfold Cert.KernelIdeal.Gen.out0_2
  rw [View.canon_unit_zero hz3]
  simp only [View.ld_unit_zero (S := S1x128x31x512) hz4]
  have hv4 : ∀ (k : Fin 31) (w : Fin 512), Gen.k0_pay1 x0 x1 (ix3 r k w)
      = (fun w k => at4 x0 0 r.val k w * at4 x1 0 r.val k w) w.val k.val := fun k w => pay1_apply x0 x1 r k w
  exact pay9_sum _ _ _ r hv4 (fun c => pay8_sum _ _ _ r hv4 (fun c => pay6_sum _ _ _ r hv4 (fun c =>
    pay3_sum _ _ _ r hv4 (fun c => pay2_sum x0 x1 _ r hv4 c) c) c) c) c

end Cert.KernelBody

end
-- ==== Proof.KernelArray.lean ====
/-
  The kernel's array after the region, as ONE function of the two arguments.

  The region runs on a 4 x 8 grid: point (q, b) takes rows 128 q .. 128 q + 127 of batch b. Its two input blocks are
  cut from the TRANSPOSED arguments (bands on axis 2, width on axis 3), the mask's block not moving with b; its output
  block is rows 128 q .. 128 q + 127 of batch b of the padded detector array [8, 512, 640]. What the body leaves in a
  block row is the shifted band sum of that row's products (`BodySum`, proved separately over arbitrary blocks), so the
  whole array ends as

      bandSum X H (b, m, c) = Σ_{k < 31, k ≤ c < k + 512}  X[b, m, c − k, k] · H[0, m, c − k, k]      (c < 640),

  every output block being a restriction of this one function and the 32 blocks covering the array.
-/
import proofs.«123080_j38439957299668_2_alg».proof.Proof.Gen.KernelIdeal.Frame
import proofs.«123080_j38439957299668_2_alg».proof.Proof.LibShiftSum
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelArray

open Cert.KernelIdeal Cert.KernelIdeal.Gen Cert.ShiftSum
open Idealize.ShloMosaic Idealize.ShloMosaic.TcCoe Idealize.ShloMosaic.ValueIdx Idealize.SL.Sem
open Idealize.ShloMosaic.Pipeline (Dat)

/-- What the body leaves in row `r` of its output block, for ANY two input blocks: the shifted band sum of the row's
    products (blocks are [1, row, band, width]). -/
def BodySum : Prop :=
  ∀ (x0 x1 : Vec Ideal S1x128x31x512 .f32) (r : Fin 128) (c : Fin 640),
    out0_2 (F := Ideal) x0 x1 (ix3 (0 : Fin 1) r c)
      = shiftSum 512 31 (fun w k => at4 x0 0 r.val k w * at4 x1 0 r.val k w) c.val

/-- The padded detector array: entry (b, m, c) is the sum over the bands whose shifted window reaches column c. -/
def bandSum (X : S8x512x512x31.Idx → EReal) (H : S1x512x512x31.Idx → EReal) : S8x512x640.Idx → EReal :=
  fun i => shiftSum 512 31 (fun w k => at4 X (i 0).val (i 1).val w k * at4 H 0 (i 1).val w k) (i 2).val

/-! ## Rows of blocks are rows of the arguments -/

/-- If row `r` of the two blocks holds row `mm` of batch `bb` of the arguments (transposed), the row's shifted band sum
    is the arguments'. -/
theorem row_sum_eq (x0 x1 : Vec Ideal S1x128x31x512 .f32) (X : S8x512x512x31.Idx → EReal) (H : S1x512x512x31.Idx → EReal)
    (bb : Fin 8) (mm : Fin 512) (r : Fin 128)
    (h0 : ∀ (k : Fin 31) (w : Fin 512), x0 (ix4 (0 : Fin 1) r k w) = X (ix4 bb mm w k))
    (h1 : ∀ (k : Fin 31) (w : Fin 512), x1 (ix4 (0 : Fin 1) r k w) = H (ix4 (0 : Fin 1) mm w k)) (c : Nat) :
    shiftSum 512 31 (fun w k => at4 x0 0 r.val k w * at4 x1 0 r.val k w) c
      = shiftSum 512 31 (fun w k => at4 X bb.val mm.val w k * at4 H 0 mm.val w k) c := by
  refine shiftSum_congr 512 31 _ _ c fun k hk w hw => ?_
  have e0 : at4 x0 0 r.val k w = at4 X bb.val mm.val w k :=
    (at4_of_lt x0 (0 : Fin 1) r ⟨k, hk⟩ ⟨w, hw⟩).trans ((h0 ⟨k, hk⟩ ⟨w, hw⟩).trans (at4_of_lt X bb mm ⟨w, hw⟩ ⟨k, hk⟩).symm)
  have e1 : at4 x1 0 r.val k w = at4 H 0 mm.val w k :=
    (at4_of_lt x1 (0 : Fin 1) r ⟨k, hk⟩ ⟨w, hw⟩).trans ((h1 ⟨k, hk⟩ ⟨w, hw⟩).trans (at4_of_lt H (0 : Fin 1) mm ⟨w, hw⟩ ⟨k, hk⟩).symm)
  show at4 x0 0 r.val k w * at4 x1 0 r.val k w = at4 X bb.val mm.val w k * at4 H 0 mm.val w k
  rw [e0, e1]

/-- An output block entry is the padded detector array's entry at the block's place in the array. -/
theorem block_entry (hbody : BodySum) (x0 x1 : Vec Ideal S1x128x31x512 .f32) (X : S8x512x512x31.Idx → EReal)
    (H : S1x512x512x31.Idx → EReal) (bb : Fin 8) (q : Nat) (hq : q ≤ 3)
    (h0 : ∀ (r : Fin 128) (k : Fin 31) (w : Fin 512),
      x0 (ix4 (0 : Fin 1) r k w) = X (ix4 bb ⟨q * 128 + r.val, by have := r.isLt; omega⟩ w k))
    (h1 : ∀ (r : Fin 128) (k : Fin 31) (w : Fin 512),
      x1 (ix4 (0 : Fin 1) r k w) = H (ix4 (0 : Fin 1) ⟨q * 128 + r.val, by have := r.isLt; omega⟩ w k))
    (r : Fin 128) (cc : Fin 640) (i : S8x512x640.Idx) (hi0 : (i 0).val = bb.val) (hi1 : (i 1).val = q * 128 + r.val)
    (hi2 : (i 2).val = cc.val) :
    out0_2 (F := Ideal) x0 x1 (ix3 (0 : Fin 1) r cc) = bandSum X H i := by
  rw [hbody x0 x1 r cc]
  show shiftSum 512 31 (fun w k => at4 x0 0 r.val k w * at4 x1 0 r.val k w) cc.val
    = shiftSum 512 31 (fun w k => at4 X (i 0).val (i 1).val w k * at4 H 0 (i 1).val w k) (i 2).val
  rw [hi0, hi1, hi2]
  exact row_sum_eq x0 x1 X H bb ⟨q * 128 + r.val, by have := r.isLt; omega⟩ r (h0 r) (h1 r) cc.val

/-! ## The arrays the region finds: the transposed arguments -/

variable (m : (ℓ : Loc nD τ sig) → Buf (Elt Ideal) ℓ)

/-- The cube's window reads the transposed cube. -/
theorem V_v0 (c : Dev nD) : (V m c main_v0 : S8x512x31x512.Idx → EReal)
    = transpose S8x512x31x512 [0, 1, 3, 2] (m ((c : Thread nD τ).loc main_arg0)) transposes_S8x512x512x31_S8x512x31x512_0_1_3_2 := by
  show StableHlo.after hostOps0 (fun b => m (c, b)) (Proc.devRef .tc main_v0) = _
  after_results

/-- The mask's window reads the transposed mask. -/
theorem V_v1 (c : Dev nD) : (V m c main_v1 : S1x512x31x512.Idx → EReal)
    = transpose S1x512x31x512 [0, 1, 3, 2] (m ((c : Thread nD τ).loc main_arg1)) transposes_S1x512x512x31_S1x512x31x512_0_1_3_2 := by
  show StableHlo.after hostOps0 (fun b => m (c, b)) (Proc.devRef .tc main_v1) = _
  after_results

theorem V_v0_apply (c : Dev nD) (b : Fin 8) (r : Fin 512) (k : Fin 31) (w : Fin 512) :
    (V m c main_v0 : S8x512x31x512.Idx → EReal) (ix4 b r k w) = m ((c : Thread nD τ).loc main_arg0) (ix4 b r w k) :=
  (congrFun (V_v0 m c) (ix4 b r k w)).trans
    (transpose_apply [0, 1, 3, 2] _ transposes_S8x512x512x31_S8x512x31x512_0_1_3_2 (ix4 b r k w) (ix4 b r w k)
      (fun a => match a with | ⟨0, _⟩ => rfl | ⟨1, _⟩ => rfl | ⟨2, _⟩ => rfl | ⟨3, _⟩ => rfl))

theorem V_v1_apply (c : Dev nD) (b : Fin 1) (r : Fin 512) (k : Fin 31) (w : Fin 512) :
    (V m c main_v1 : S1x512x31x512.Idx → EReal) (ix4 b r k w) = m ((c : Thread nD τ).loc main_arg1) (ix4 b r w k) :=
  (congrFun (V_v1 m c) (ix4 b r k w)).trans
    (transpose_apply [0, 1, 3, 2] _ transposes_S1x512x512x31_S1x512x31x512_0_1_3_2 (ix4 b r k w) (ix4 b r w k)
      (fun a => match a with | ⟨0, _⟩ => rfl | ⟨1, _⟩ => rfl | ⟨2, _⟩ => rfl | ⟨3, _⟩ => rfl))

/-! ## The index maps over the grid -/

/-- The printed index maps, decided over the 32 points: the cube's block moves with the output's on batch and row
    block, the mask's on the row block only, and nothing else moves. -/
theorem idx_facts : ∀ t : Fin cfg0.N,
    win0_0.index t (0 : Fin 4) = win0_2.index t (0 : Fin 3) ∧ win0_0.index t (1 : Fin 4) = win0_2.index t (1 : Fin 3)
    ∧ win0_0.index t (2 : Fin 4) = 0 ∧ win0_0.index t (3 : Fin 4) = 0
    ∧ win0_1.index t (0 : Fin 4) = 0 ∧ win0_1.index t (1 : Fin 4) = win0_2.index t (1 : Fin 3)
    ∧ win0_1.index t (2 : Fin 4) = 0 ∧ win0_1.index t (3 : Fin 4) = 0
    ∧ win0_2.index t (0 : Fin 3) ≤ 7 ∧ win0_2.index t (1 : Fin 3) ≤ 3 ∧ win0_2.index t (2 : Fin 3) = 0 :=
  (by decide +kernel : ∀ t : Fin grid0.N, _)

/-- Every (batch, row block) is some point's. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-! ## What a point writes back -/

/-- The cube's block at point `t`, entry (0, r, k, w): the cube at (batch, 128·row block + r, w, k). -/
theorem iblk0_apply (c : Dev nD) (t : Fin cfg0.N) (r : Fin 128) (k : Fin 31) (w : Fin 512)
    (hb : win0_2.index t (0 : Fin 3) < 8) (hr : win0_2.index t (1 : Fin 3) * 128 + r.val < 512) :
    (iblk m c 0 t : Vec Ideal S1x128x31x512 .f32) (ix4 (0 : Fin 1) r k w)
      = m ((c : Thread nD τ).loc main_arg0) (ix4 ⟨win0_2.index t (0 : Fin 3), hb⟩ ⟨win0_2.index t (1 : Fin 3) * 128 + r.val, hr⟩ w k) := by
  obtain ⟨e0, e1, e2, e3, -, -, -, -, -, -, -⟩ := idx_facts t
  show (V m c main_v0 : S8x512x31x512.Idx → EReal) (((cfg0.win 0).blk t).view.emb (ix4 (0 : Fin 1) r k w)) = _
  have he : ((cfg0.win 0).blk t).view.emb (ix4 (0 : Fin 1) r k w)
      = ix4 ⟨win0_2.index t (0 : Fin 3), hb⟩ ⟨win0_2.index t (1 : Fin 3) * 128 + r.val, hr⟩ k w := by
    funext a; apply Fin.ext
    match a with
    | ⟨0, _⟩ => show win0_0.index t (0 : Fin 4) * 1 + 1 * 0 = win0_2.index t (0 : Fin 3); omega
    | ⟨1, _⟩ => show win0_0.index t (1 : Fin 4) * 128 + 1 * r.val = win0_2.index t (1 : Fin 3) * 128 + r.val; omega
    | ⟨2, _⟩ => show win0_0.index t (2 : Fin 4) * 31 + 1 * k.val = k.val; omega
    | ⟨3, _⟩ => show win0_0.index t (3 : Fin 4) * 512 + 1 * w.val = w.val; omega
  rw [he]
  exact V_v0_apply m c _ _ k w

/-- The mask's block at point `t`, entry (0, r, k, w): the mask at (0, 128·row block + r, w, k). -/
theorem iblk1_apply (c : Dev nD) (t : Fin cfg0.N) (r : Fin 128) (k : Fin 31) (w : Fin 512)
    (hr : win0_2.index t (1 : Fin 3) * 128 + r.val < 512) :
    (iblk m c 1 t : Vec Ideal S1x128x31x512 .f32) (ix4 (0 : Fin 1) r k w)
      = m ((c : Thread nD τ).loc main_arg1) (ix4 (0 : Fin 1) ⟨win0_2.index t (1 : Fin 3) * 128 + r.val, hr⟩ w k) := by
  obtain ⟨-, -, -, -, e0, e1, e2, e3, -, -, -⟩ := idx_facts t
  show (V m c main_v1 : S1x512x31x512.Idx → EReal) (((cfg0.win 1).blk t).view.emb (ix4 (0 : Fin 1) r k w)) = _
  have he : ((cfg0.win 1).blk t).view.emb (ix4 (0 : Fin 1) r k w)
      = ix4 (0 : Fin 1) ⟨win0_2.index t (1 : Fin 3) * 128 + r.val, hr⟩ k w := by
    funext a; apply Fin.ext
    match a with
    | ⟨0, _⟩ => show win0_1.index t (0 : Fin 4) * 1 + 1 * 0 = 0; omega
    | ⟨1, _⟩ => show win0_1.index t (1 : Fin 4) * 128 + 1 * r.val = win0_2.index t (1 : Fin 3) * 128 + r.val; omega
    | ⟨2, _⟩ => show win0_1.index t (2 : Fin 4) * 31 + 1 * k.val = k.val; omega
    | ⟨3, _⟩ => show win0_1.index t (3 : Fin 4) * 512 + 1 * w.val = w.val; omega
  rw [he]
  exact V_v1_apply m c _ _ k w

/-- WHAT POINT `t` WRITES BACK is block `t` of the padded detector array of the arguments. -/
theorem flushed_eq (hbody : BodySum) (c : Dev nD) (t : Fin cfg0.N) :
    (dats m 0 c).flushed 2 t = ((cfg0.win 2).blk t).view.read (Elt Ideal)
      (bandSum (m ((c : Thread nD τ).loc main_arg0)) (m ((c : Thread nD τ).loc main_arg1))) := by
  show (cfg0.win 2).cut (grid0.coords t) ((dats m 0 c).after 2 t) = _
  rw [after0_2]
  obtain ⟨-, -, -, -, -, -, -, -, f0, f1, f2⟩ := idx_facts t
  refine funext fun (j : S1x128x640.Idx) => ?_
  obtain ⟨z, r, cc, rfl⟩ : ∃ (z : Fin 1) (r : Fin 128) (cc : Fin 640), j = ix3 z r cc := ⟨j 0, j 1, j 2, eq_ix3 j⟩
  obtain rfl : z = 0 := Subsingleton.elim _ _
  show out0_2 (F := Ideal) (iblk m c 0 t) (iblk m c 1 t) (ix3 (0 : Fin 1) r cc)
    = bandSum (m ((c : Thread nD τ).loc main_arg0)) (m ((c : Thread nD τ).loc main_arg1))
        (((cfg0.win 2).blk t).view.emb (ix3 (0 : Fin 1) r cc))
  exact block_entry hbody (iblk m c 0 t) (iblk m c 1 t) (m ((c : Thread nD τ).loc main_arg0)) (m ((c : Thread nD τ).loc main_arg1))
    ⟨win0_2.index t (0 : Fin 3), by omega⟩ (win0_2.index t (1 : Fin 3)) f1
    (fun r k w => iblk0_apply m c t r k w (by omega) (by have := r.isLt; omega))
    (fun r k w => iblk1_apply m c t r k w (by have := r.isLt; omega))
    r cc (((cfg0.win 2).blk t).view.emb (ix3 (0 : Fin 1) r cc))
    (by show win0_2.index t (0 : Fin 3) * 1 + 1 * 0 = win0_2.index t (0 : Fin 3); omega)
    (by show win0_2.index t (1 : Fin 3) * 128 + 1 * r.val = win0_2.index t (1 : Fin 3) * 128 + r.val; omega)
    (by show win0_2.index t (2 : Fin 3) * 640 + 1 * cc.val = cc.val; omega)

/-! ## The blocks cover the array -/

/-- An index of the array is in point `t`'s block iff each coordinate is in the block's range on its axis. -/
theorem mem_blk (t : Fin cfg0.N) (i : S8x512x640.Idx) :
    i ∈ ((cfg0.win 2).blk t).view.set ↔ ∀ a : Fin 3, win0_2.index t a * S1x128x640.size a ≤ (i a).val
      ∧ (i a).val < win0_2.index t a * S1x128x640.size a + S1x128x640.size a := by
  show i ∈ ((View.whole main_v2).slice (win0_2.rect t)).set ↔ _
  rw [View.set_slice_whole, Rect.mem_set_unit]
  exact Iff.rfl

/-- Every index of the padded detector array lies in the block of the point with its batch and its row block. -/
theorem cover (i : S8x512x640.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 640 := (i 2).isLt
  obtain ⟨t, ht⟩ := idx_onto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 640 ≤ (i 2).val ∧ (i 2).val < win0_2.index t (2 : Fin 3) * 640 + 640; omega

/-- THE ARRAY after the region: the padded detector array of the arguments. -/
theorem final (hbody : BodySum) (c : Dev nD) :
    (dats m 0 c).arrAt 2 cfg0.N
      = bandSum (m ((c : Thread nD τ).loc main_arg0)) (m ((c : Thread nD τ).loc main_arg1)) :=
  (dats m 0 c).arrAt_eq_of_cover 2 _ (fun t _ => flushed_eq m hbody c t) cover

end Cert.KernelArray

end
-- ==== Proof.KernelTail.lean ====
/-
  The host operations after the region, and the kernel program's run read as values.

  After the region the padded detector array A : [8, 512, 640] is cut back to its 542 real columns, divided by its
  maximum entry, and given a trailing unit axis; the second result is the mask with a trailing unit axis:

      normalise A (b, m, c, 0) = A[b, m, c] / max_{b', m', c' < 542} A[b', m', c'].

  `normalise` is kept as ONE function of A (the reference's result is shown to be the same function of the same A
  elsewhere); here it is only read off the program's tail, and the array A is the region's output.
-/
import proofs.«123080_j38439957299668_2_alg».proof.Proof.KernelArray
import Idealize.ShloMosaic.Lib.Pipeline.FrameSuffix

noncomputable section

namespace Cert.KernelTail

open Cert.KernelIdeal Cert.KernelIdeal.Gen Cert.ShiftSum Cert.KernelArray
open Idealize.ShloMosaic Idealize.ShloMosaic.TcCoe Idealize.ShloMosaic.ValueIdx Idealize.SL.Sem
open Idealize.ShloMosaic.Pipeline (Dat)

/-- The 542 real columns of the padded detector array. -/
def realCols (A : S8x512x640.Idx → EReal) : S8x512x542.Idx → EReal :=
  extractStridedSlice S8x512x542 ![0, 0, 0] A slices_S8x512x640_S8x512x542_0_0_0

/-- The largest entry of an [8, 512, 542] array (the fold of max from −∞). -/
def maxAll (Y : S8x512x542.Idx → EReal) : S_.Idx → EReal :=
  Host.reduce (FloatOps.maximumf (F := Ideal) (φ := .f32)) Y (constant (F := Ideal) S_ .f32 0xFF800000#32) reducesTo_S8x512x542_S_d0_1_2 h_S_

/-- Divide an [8, 512, 542] array by a scalar and add a trailing unit axis. -/
def normaliseWith (M : S_.Idx → EReal) (Y : S8x512x542.Idx → EReal) : S8x512x542x1.Idx → EReal :=
  broadcastInDim S8x512x542x1 ![0, 1, 2] bcast_S8x512x542_S8x512x542x1_0_1_2
    (Host.divf (F := Ideal) (φ := .f32) Y (broadcastInDim S8x512x542 ![] bcast_S_S8x512x542 M))

/-- The program's tail: cut to the real columns, divide by their maximum, add a trailing unit axis. -/
def normalise (A : S8x512x640.Idx → EReal) : S8x512x542x1.Idx → EReal :=
  normaliseWith (maxAll (realCols A)) (realCols A)

/-- The mask with a trailing unit axis. -/
def maskOut (H : S1x512x512x31.Idx → EReal) : S1x512x512x31x1.Idx → EReal :=
  broadcastInDim S1x512x512x31x1 ![0, 1, 2, 3] bcast_S1x512x512x31_S1x512x512x31x1_0_1_2_3 H

variable (m : (ℓ : Loc nD τ sig) → Buf (Elt Ideal) ℓ) (ρ : Dev nD → PrngReg)

/-- The first result after the tail: `normalise` of the region's output array. -/
theorem tail_v7 (c : Dev nD) :
    Pipeline.afterTail₀ cfgs (dats m) 0 (V0 m) [hostOps1] c main_v7 = normalise ((dats m 0 c).arrAt 2 cfg0.N) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v2)
      = (dats m 0 c).arrAt 2 cfg0.N from Pipeline.withArrays_arr spec0 launch0.win.arr_inj c _ _ 2]
  rfl

/-- The second result after the tail: the mask with a trailing unit axis. -/
theorem tail_v8 (c : Dev nD) :
    Pipeline.afterTail₀ cfgs (dats m) 0 (V0 m) [hostOps1] c main_v8 = maskOut (m ((c : Thread nD τ).loc main_arg1)) := by
  unfold Pipeline.afterTail₀
  show StableHlo.after hostOps1 _ (Proc.devRef .tc main_v8) = _
  after_results
  rw [Pipeline.withArrays_of_ne _ c (V0 m c) _ main_arg1 (by exact (by decide : ∀ w, Pipeline.arrRef spec0 w ≠ main_arg1))]
  exact congrArg maskOut (V_main_arg1 m c)

/-- THE KERNEL PROGRAM'S RUN, read as values: every weakly fair execution ends with the first result at `normalise` of the
    padded detector array of the arguments, the second at the mask with a unit axis, and the arguments unchanged. -/
theorem kernel_run (hbody : BodySum) :
    θ_run defs (onTc (τ := τ) (main (F := Ideal))) ⟨m, fun _ => 0, ρ⟩ fun r => ∀ c : Dev nD,
      r.2.mem ((c.tc : Thread nD τ).loc main_v7)
          = normalise (bandSum (m ((c.tc : Thread nD τ).loc main_arg0)) (m ((c.tc : Thread nD τ).loc main_arg1)))
      ∧ r.2.mem ((c.tc : Thread nD τ).loc main_v8) = maskOut (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans
        ((tail_v7 m c).trans (congrArg normalise (final m hbody c))),
      ((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelTail

end
-- ==== Proof.LibScatterWindow.lean ====
/-
  Reading a scatter at one target index.

  `Host.scatter d f x idx upd` is the left fold, over the update indices in row-major order, of the step that sends update
  index j to its result index `d.resultIdx? j idx` and, when that is `some i`, replaces the entry at i by
  `f (old entry at i) (upd j)`. At a fixed target index i' only the updates whose result index is i' matter:

    * when no update lands on i', the entry is the operand's (`scatter_apply_of_miss`);
    * when exactly one update j0 lands on i', the entry is `f (x i') (upd j0)` (`scatter_apply_of_unique`).

  Both follow from the same two facts about a fold of that step over an ARBITRARY list of update numbers, with the
  accumulator generalised, by induction on the list (`foldl_step_of_miss`, `foldl_step_of_unique`); the list of all update
  numbers has no repeats and contains every number.
-/
import Idealize.ShloMosaic.PureOps.ShapeOps

namespace Cert.ScatterWindow

open Idealize.ShloMosaic

section Fold

variable {ι κ α : Type} [DecidableEq ι]

/-- One step of the fold: update number `n`, landing at `g n`, combines its value `v n` into the entry there. -/
def step (f : α → α → α) (g : κ → Option ι) (v : κ → α) (r : ι → α) (n : κ) : ι → α :=
  match g n with
  | some i => fun i' => if i' = i then f (r i) (v n) else r i'
  | none => r

/-- A step whose update does not land on `i'` leaves the entry at `i'` alone. -/
theorem step_of_ne (f : α → α → α) (g : κ → Option ι) (v : κ → α) (r : ι → α) (n : κ) (i' : ι)
    (h : g n ≠ some i') : step f g v r n i' = r i' := by
  unfold step
  cases hg : g n with
  | none => rfl
  | some i =>
    have hne : i' ≠ i := fun e => h (by rw [hg, e])
    simp only [if_neg hne]

/-- A step whose update lands on `i'` combines its value into the entry at `i'`. -/
theorem step_of_eq (f : α → α → α) (g : κ → Option ι) (v : κ → α) (r : ι → α) (n : κ) (i' : ι)
    (h : g n = some i') : step f g v r n i' = f (r i') (v n) := by
  unfold step
  rw [h]
  simp only [if_true]

/-- Folding steps none of which lands on `i'` leaves the entry at `i'` alone. -/
theorem foldl_step_of_miss (f : α → α → α) (g : κ → Option ι) (v : κ → α) (i' : ι) :
    ∀ (l : List κ) (r : ι → α), (∀ n ∈ l, g n ≠ some i') → l.foldl (step f g v) r i' = r i'
  | [], _, _ => rfl
  | n :: l, r, h => by
    rw [List.foldl_cons,
      foldl_step_of_miss f g v i' l (step f g v r n) fun m hm => h m (List.mem_cons_of_mem n hm)]
    exact step_of_ne f g v r n i' (h n List.mem_cons_self)

/-- Folding steps over a list without repeats in which exactly one update `n0` lands on `i'`: the entry at `i'` is the
    old one combined with that update's value. -/
theorem foldl_step_of_unique (f : α → α → α) (g : κ → Option ι) (v : κ → α) (i' : ι) (n0 : κ) (h0 : g n0 = some i') :
    ∀ (l : List κ) (r : ι → α), l.Nodup → n0 ∈ l → (∀ n ∈ l, g n = some i' → n = n0) →
      l.foldl (step f g v) r i' = f (r i') (v n0)
  | [], _, _, hm, _ => absurd hm List.not_mem_nil
  | n :: l, r, hnd, hm, hu => by
    rw [List.foldl_cons]
    have hnd' := List.nodup_cons.1 hnd
    by_cases hn : n = n0
    · -- the head is the one update that lands on i': nothing in the tail does
      subst hn
      rw [foldl_step_of_miss f g v i' l (step f g v r n) fun m hml hg =>
        hnd'.1 (by rw [← hu m (List.mem_cons_of_mem n hml) hg]; exact hml)]
      exact step_of_eq f g v r n i' h0
    · -- the head does not land on i': the entry is unchanged and the tail still holds n0
      have hml : n0 ∈ l := by
        rcases List.mem_cons.1 hm with e | e
        · exact absurd e.symm hn
        · exact e
      rw [foldl_step_of_unique f g v i' n0 h0 l (step f g v r n) hnd'.2 hml fun m hm' =>
        hu m (List.mem_cons_of_mem n hm')]
      rw [step_of_ne f g v r n i' fun hg => hn (hu n List.mem_cons_self hg)]

end Fold

variable {s si u : Shape} {α : Type} {w : Nat}

/-- An update lands on `i` exactly when, on every operand axis, the window's start plus the window coordinate is `i`'s
    coordinate (being inside the operand is then automatic). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      rw [← Option.some.inj h]
      exact (Int.toNat_of_nonneg (hb a).1).symm
    · exact nomatch h
  · intro h
    have hb : ∀ a, 0 ≤ d.start j idx a + (d.window j a : Int) ∧ d.start j idx a + (d.window j a : Int) < s.size a :=
      fun a => by
        rw [h a]
        exact ⟨Int.natCast_nonneg _, Int.ofNat_lt.2 (i a).isLt⟩
    rw [dif_pos hb]
    refine congrArg some (funext fun a => Fin.ext ?_)
    show (d.start j idx a + (d.window j a : Int)).toNat = (i a).val
    rw [h a]
    exact Int.toNat_natCast _

/-- `Host.scatter` is the fold of `step` over all update numbers. -/
theorem scatter_eq_foldl (d : ScatterDims s si u) (f : α → α → α) (x : s.Idx → α) (idx : IVec si w) (upd : u.Idx → α) :
    Host.scatter d f x idx upd
      = (List.finRange u.numel).foldl
          (step f (fun n => d.resultIdx? (u.rowMajor.symm n) idx) (fun n => upd (u.rowMajor.symm n))) x := by
  unfold Host.scatter
  congr 1
  funext r n
  unfold step
  dsimp only
  generalize d.resultIdx? (u.rowMajor.symm n) idx = o
  cases o <;> rfl

/-- A target index no update lands on keeps the operand's entry. -/
theorem scatter_apply_of_miss (d : ScatterDims s si u) (f : α → α → α) (x : s.Idx → α) (idx : IVec si w) (upd : u.Idx → α)
    (i' : s.Idx) (h : ∀ j : u.Idx, d.resultIdx? j idx ≠ some i') : Host.scatter d f x idx upd i' = x i' := by
  rw [scatter_eq_foldl]
  exact foldl_step_of_miss f _ _ i' _ x fun n _ => h (u.rowMajor.symm n)

/-- A target index exactly one update `j0` lands on holds the operand's entry combined with that update's. -/
theorem scatter_apply_of_unique (d : ScatterDims s si u) (f : α → α → α) (x : s.Idx → α) (idx : IVec si w)
    (upd : u.Idx → α) (i' : s.Idx) (j0 : u.Idx) (h0 : d.resultIdx? j0 idx = some i')
    (hu : ∀ j : u.Idx, d.resultIdx? j idx = some i' → j = j0) :
    Host.scatter d f x idx upd i' = f (x i') (upd j0) := by
  rw [scatter_eq_foldl]
  have hs : u.rowMajor.symm (u.rowMajor j0) = j0 := Equiv.symm_apply_apply _ _
  have := foldl_step_of_unique f (fun n => d.resultIdx? (u.rowMajor.symm n) idx) (fun n => upd (u.rowMajor.symm n)) i'
    (u.rowMajor j0) (by simp only [hs]; exact h0) (List.finRange u.numel) x (List.nodup_finRange _) (List.mem_finRange _)
    (fun n _ hg => by
      have := hu _ hg
      rw [← this]; exact (Equiv.apply_symm_apply _ _).symm)
  rw [this]
  simp only [hs]

end Cert.ScatterWindow
-- ==== Proof.RefScatter.lean ====
/-
  One band of the reference's accumulation, read at an index.

  The reference lays band K down by a scatter of a [8, 512, 512, 1] update into the [8, 512, 542, 1] accumulator whose
  one scatter index is the column K: update entry (b, m, w, 0) lands on accumulator entry (b, m, K + w, 0). So an
  accumulator column c with K ≤ c < K + 512 receives exactly one update entry, the one at w = c − K, and every other
  column receives none.

  The dimension numbers are the program's record `scatter_S8x512x542x1_S1_S8x512x512x1_0123_n_2_0`; `dims` below is the
  same record as a closed term, on which the small list facts (which axes are window axes, which axis the index names)
  are decided.
-/
import proofs.«123080_j38439957299668_2_alg».proof.ReferenceIdeal
import proofs.«123080_j38439957299668_2_alg».proof.Proof.LibScatterWindow
import Idealize.ShloMosaic.Lib.ValueIdx

namespace Cert.RefScatter

open Idealize.ShloMosaic Idealize.ShloMosaic.ValueIdx Cert.ReferenceIdeal Cert.ScatterWindow

/-- The scatter's dimension numbers as a closed term: all four update axes are window axes, no operand axis is inserted,
    the one index component names operand axis 2. -/
def dims : ScatterDims S8x512x542x1 S1 S8x512x512x1 where
  updateWindowDims := [0, 1, 2, 3]
  insertedWindowDims := []
  scatterDimsToOperandDims := [2]
  indexVectorDim := 0
  wf := by decide

/-- The program's record is `dims`. -/
theorem record_eq [Facts₀] : scatter_S8x512x542x1_S1_S8x512x512x1_0123_n_2_0 = dims := rfl

/-- Every operand axis is a kept axis (none is inserted). -/
theorem mem_sKept : ∀ a : Fin 4, a ∈ dims.sKept := by decide

/-- On every operand axis the window coordinate is the update index's coordinate on the same axis. -/
theorem window_eq (j : S8x512x512x1.Idx) (a : Fin 4) : dims.window j a = (j a).val := by
  unfold ScatterDims.window
  match a with
  | ⟨0, _⟩ => exact (dif_pos (mem_sKept _)).trans rfl
  | ⟨1, _⟩ => exact (dif_pos (mem_sKept _)).trans rfl
  | ⟨2, _⟩ => exact (dif_pos (mem_sKept _)).trans rfl
  | ⟨3, _⟩ => exact (dif_pos (mem_sKept _)).trans rfl

variable {w : Nat}

/-- The window starts at the index's value on axis 2. -/
theorem start_two (j : S8x512x512x1.Idx) (idx : IVec S1 w) (K : Int) (hidx : ∀ i, (idx i).toInt = K) :
    dims.start j idx (2 : Fin 4) = K := by
  unfold ScatterDims.start
  exact (dif_pos (List.mem_singleton.2 rfl)).trans (hidx _)

/-- The window starts at 0 on the other axes. -/
theorem start_other (j : S8x512x512x1.Idx) (idx : IVec S1 w) (a : Fin 4) (ha : a.val ≠ 2) : dims.start j idx a = 0 := by
  unfold ScatterDims.start
  refine dif_neg fun h => ha ?_
  rw [List.mem_singleton.1 h]
  rfl

section Band

variable (idx : IVec S1 w) (K : Nat) (hidx : ∀ i, (idx i).toInt = (K : Int))
include hidx

/-- Where an update entry lands: start plus window coordinate is the entry's coordinate, plus `K` on axis 2. -/
theorem landing (j : S8x512x512x1.Idx) (i : S8x512x542x1.Idx) :
    dims.resultIdx? j idx = some i ↔
      (j 0).val = (i 0).val ∧ (j 1).val = (i 1).val ∧ K + (j 2).val = (i 2).val ∧ (j 3).val = (i 3).val := by
  rw [resultIdx?_eq_some_iff]
  have e0 := start_other j idx 0 (show (0 : Nat) ≠ 2 by decide)
  have e1 := start_other j idx 1 (show (1 : Nat) ≠ 2 by decide)
  have e2 := start_two j idx K hidx
  have e3 := start_other j idx 3 (show (3 : Nat) ≠ 2 by decide)
  constructor
  · intro h
    have h0 := h 0
    have h1 := h 1
    have h2 := h 2
    have h3 := h 3
    rw [window_eq, e0] at h0
    rw [window_eq, e1] at h1
    rw [window_eq, e2] at h2
    rw [window_eq, e3] at h3
    omega
  · intro h a
    rw [window_eq]
    match a with
    | ⟨0, _⟩ => show dims.start j idx 0 + ((j 0).val : Int) = ((i 0).val : Int); rw [e0]; have := h.1; omega
    | ⟨1, _⟩ => show dims.start j idx 1 + ((j 1).val : Int) = ((i 1).val : Int); rw [e1]; have := h.2.1; omega
    | ⟨2, _⟩ => show dims.start j idx 2 + ((j 2).val : Int) = ((i 2).val : Int); rw [e2]; have := h.2.2.1; omega
    | ⟨3, _⟩ => show dims.start j idx 3 + ((j 3).val : Int) = ((i 3).val : Int); rw [e3]; have := h.2.2.2; omega

/-- Update entry (b, m, v, 0) lands on accumulator entry (b, m, K + v, 0). -/
theorem resultIdx?_ix4 (b : Fin 8) (m : Fin 512) (v : Fin 512) (c : Fin 542) (hc : c.val = K + v.val) :
    dims.resultIdx? (ix4 b m v (0 : Fin 1)) idx = some (ix4 b m c (0 : Fin 1)) := by
  rw [landing idx K hidx]
  exact ⟨rfl, rfl, hc.symm, rfl⟩

/-- Only update entry (b, m, c − K, 0) lands on accumulator entry (b, m, c, 0), and only when K ≤ c < K + 512. -/
theorem of_resultIdx?_ix4 (j : S8x512x512x1.Idx) (b : Fin 8) (m : Fin 512) (c : Fin 542)
    (h : dims.resultIdx? j idx = some (ix4 b m c (0 : Fin 1))) :
    ∃ hc : K ≤ c.val ∧ c.val < K + 512, j = ix4 b m (⟨c.val - K, by omega⟩ : Fin 512) (0 : Fin 1) := by
  have h' := (landing idx K hidx j _).1 h
  have l2 : (j 2).val < 512 := (j 2).isLt
  have h2 : K + (j 2).val = c.val := h'.2.2.1
  refine ⟨by omega, ?_⟩
  refine (eq_ix4 j).trans ?_
  have e0 : j 0 = b := Fin.ext h'.1
  have e1 : j 1 = m := Fin.ext h'.2.1
  have e2 : j 2 = (⟨c.val - K, by omega⟩ : Fin 512) := Fin.ext (by show (j 2).val = c.val - K; omega)
  have e3 : j 3 = (0 : Fin 1) := Fin.ext h'.2.2.2
  rw [e0, e1, e2, e3]
  rfl

/-- ONE BAND, at a covered column: the accumulator's entry combined with the update's entry `K` columns to the left. -/
theorem scatter_dims_hit {α : Type} (f : α → α → α) (y : S8x512x542x1.Idx → α) (u : S8x512x512x1.Idx → α)
    (b : Fin 8) (m : Fin 512) (c : Fin 542) (v : Fin 512) (hc : c.val = K + v.val) :
    Host.scatter dims f y idx u (ix4 b m c (0 : Fin 1)) = f (y (ix4 b m c 0)) (u (ix4 b m v 0)) := by
  refine scatter_apply_of_unique dims f y idx u _ _ (resultIdx?_ix4 idx K hidx b m v c hc) fun j hj => ?_
  obtain ⟨_, e⟩ := of_resultIdx?_ix4 idx K hidx j b m c hj
  rw [e]
  have : (⟨c.val - K, by omega⟩ : Fin 512) = v := Fin.ext (by show c.val - K = v.val; omega)
  rw [this]

/-- ONE BAND, at a column the shifted band does not reach: the accumulator's entry, unchanged. -/
theorem scatter_dims_miss {α : Type} (f : α → α → α) (y : S8x512x542x1.Idx → α) (u : S8x512x512x1.Idx → α)
    (b : Fin 8) (m : Fin 512) (c : Fin 542) (hc : ¬(K ≤ c.val ∧ c.val < K + 512)) :
    Host.scatter dims f y idx u (ix4 b m c (0 : Fin 1)) = y (ix4 b m c 0) := by
  refine scatter_apply_of_miss dims f y idx u _ fun j hj => hc ?_
  obtain ⟨h, _⟩ := of_resultIdx?_ix4 idx K hidx j b m c hj
  exact h

variable [Facts₀]

/-- ONE BAND of the program's scatter, at a covered column. -/
theorem scatter_hit {α : Type} (f : α → α → α) (y : S8x512x542x1.Idx → α) (u : S8x512x512x1.Idx → α)
    (b : Fin 8) (m : Fin 512) (c : Fin 542) (v : Fin 512) (hc : c.val = K + v.val) :
    Host.scatter scatter_S8x512x542x1_S1_S8x512x512x1_0123_n_2_0 f y idx u (ix4 b m c (0 : Fin 1))
      = f (y (ix4 b m c 0)) (u (ix4 b m v 0)) := by
  rw [record_eq]
  exact scatter_dims_hit idx K hidx f y u b m c v hc

/-- ONE BAND of the program's scatter, at a column the shifted band does not reach. -/
theorem scatter_miss {α : Type} (f : α → α → α) (y : S8x512x542x1.Idx → α) (u : S8x512x512x1.Idx → α)
    (b : Fin 8) (m : Fin 512) (c : Fin 542) (hc : ¬(K ≤ c.val ∧ c.val < K + 512)) :
    Host.scatter scatter_S8x512x542x1_S1_S8x512x512x1_0123_n_2_0 f y idx u (ix4 b m c (0 : Fin 1)) = y (ix4 b m c 0) := by
  rw [record_eq]
  exact scatter_dims_miss idx K hidx f y u b m c hc

end Band

end Cert.RefScatter
-- ==== Proof.RefValue.lean ====
/-
  The reference's accumulated sum, read at an index.

  The reference forms the product cube Aux[b, m, w, k, 0] = H[0, m, w, k] · X[b, m, w, k], starts from a zero accumulator
  [8, 512, 542, 1] and, for each band k = 0, …, 30 in turn, scatters band k of Aux (as an [8, 512, 512, 1] update) into
  the accumulator at column k with addition. Reading one band's scatter at (b, m, c, 0): when k ≤ c < k + 512 the
  accumulator's entry gains Aux[b, m, c − k, k, 0], otherwise it is unchanged — which is exactly how `shiftSum` grows by one
  band (`step`). Thirty-one applications, from the zero accumulator (the empty sum), give the whole sum (`ref_sum`).

  `band_apply` and `step` are stated for a band number `K` that is a variable; the thirty-one stages `sum_0 … sum_30` are
  the same line with K = 0, …, 30 and the program's names for that band's operations filled in.
-/
import proofs.«123080_j38439957299668_2_alg».proof.Proof.RefRead
import proofs.«123080_j38439957299668_2_alg».proof.Proof.RefScatter
import proofs.«123080_j38439957299668_2_alg».proof.Proof.LibShiftSum
import Idealize.ShloMosaic.PureOps.Ideal.Laws

noncomputable section

namespace Cert.RefValue

open Cert.ReferenceIdeal Cert.ReferenceIdeal.Gen Cert.ReferenceIdeal.ReadP Cert.ShiftSum Cert.RefScatter
open Idealize.ShloMosaic Idealize.ShloMosaic.ValueIdx

variable (X : FVec Ideal S8x512x512x31 .f32) (H : FVec Ideal S1x512x512x31 .f32)

/-- Band k's entry at window column w, for fixed (b, m): the mask's entry times the cube's, at natural-number
    coordinates. -/
abbrev entry (b : Fin 8) (m : Fin 512) : Nat → Nat → EReal :=
  fun w k => at4 H 0 m.val w k * at4 X b.val m.val w k

/-- The product cube read at (b, m, w, k, 0): the mask's entry times the cube's. -/
theorem aux_apply (b : Fin 8) (m : Fin 512) (w : Fin 512) (k : Fin 31) :
    val_main_v3 (F := Ideal) X H (ix5 b m w k (0 : Fin 1)) = at4 H 0 m.val w.val k.val * at4 X b.val m.val w.val k.val := by
  rw [val_main_v3_apply, val_main_v2_apply, val_main_v0_apply, val_main_v1_apply]
  have eH : idx_main_v0 (idx_main_v2 (ix5 b m w k (0 : Fin 1))) = ix4 (0 : Fin 1) m w k := by
    funext a
    match a with
    | ⟨0, _⟩ => rfl
    | ⟨1, _⟩ => rfl
    | ⟨2, _⟩ => rfl
    | ⟨3, _⟩ => rfl
  have eX : idx_main_v1 (ix5 b m w k (0 : Fin 1)) = ix4 b m w k := by
    funext a
    match a with
    | ⟨0, _⟩ => rfl
    | ⟨1, _⟩ => rfl
    | ⟨2, _⟩ => rfl
    | ⟨3, _⟩ => rfl
  rw [eH, eX, ← at4_of_lt H 0 m w k, ← at4_of_lt X b m w k]
  rfl

/-- Band K of the product cube, cut out and reshaped to [8, 512, 512, 1], read at (b, m, w, 0). -/
theorem band_apply (K : Nat) (hK : K < 31) (hs : S8x512x512x31x1.Slices ![0, 0, 0, K, 0] S8x512x512x1x1)
    (hc : S8x512x512x1x1.ShapeCasts S8x512x512x1) (b : Fin 8) (m : Fin 512) (w : Fin 512) :
    shapeCast S8x512x512x1 (extractStridedSlice S8x512x512x1x1 ![0, 0, 0, K, 0] (val_main_v3 (F := Ideal) X H) hs) hc
        (ix4 b m w (0 : Fin 1))
      = at4 H 0 m.val w.val K * at4 X b.val m.val w.val K := by
  refine (shapeCast_apply _ hc (ix4 b m w (0 : Fin 1)) (ix5 b m w (0 : Fin 1) (0 : Fin 1)) ?_).trans ?_
  · -- the two indices have the same row-major number
    rewrite [Shape.rowMajor_val_five, Shape.rowMajor_val_four]
    show ((((b.val * 512 + m.val) * 512 + w.val) * 1 + 0) * 1 + 0) = ((b.val * 512 + m.val) * 512 + w.val) * 1 + 0
    omega
  refine (extractStridedSlice_apply ![0, 0, 0, K, 0] _ hs (ix5 b m w (0 : Fin 1) (0 : Fin 1))
    (ix5 b m w (⟨K, hK⟩ : Fin 31) (0 : Fin 1)) (fun a => ?_)).trans (aux_apply X H b m w ⟨K, hK⟩)
  match a with
  | ⟨0, _⟩ => show b.val = 0 + b.val; omega
  | ⟨1, _⟩ => show m.val = 0 + m.val; omega
  | ⟨2, _⟩ => show w.val = 0 + w.val; omega
  | ⟨3, _⟩ => show K = K + 0; omega
  | ⟨4, _⟩ => show 0 = 0 + 0; omega

/-- The index vector of band k: every entry is k. -/
theorem idxvec (k : BitVec 32) (i : S1.Idx) : broadcastInDim S1 ![] bcast_S_S1 (constantI S_ 32 k) i = k :=
  broadcastInDim_apply _ bcast_S_S1 (constantI S_ 32 k) i (fun a => a.elim0) (fun a => a.elim0)

/-- The zero accumulator is the empty sum. -/
theorem zero_stage (b : Fin 8) (m : Fin 512) (c : Fin 542) :
    val_main_v4 (F := Ideal) (ix4 b m c (0 : Fin 1)) = shiftSum 512 0 (entry X H b m) c.val := by
  rw [val_main_v4_apply, val_main_cst_apply, shiftSum_zero]
  exact Ideal.ofBits_zero_f32

/-- ONE BAND: if the accumulator holds the first K bands' sum, then after band K's scatter it holds the first K + 1
    bands' sum. -/
theorem step (K : Nat) (hK : K < 31) (hs : S8x512x512x31x1.Slices ![0, 0, 0, K, 0] S8x512x512x1x1)
    (y : FVec Ideal S8x512x542x1 .f32) (idx : IVec S1 32) (hidx : ∀ i, (idx i).toInt = (K : Int))
    (b : Fin 8) (m : Fin 512)
    (hy : ∀ c : Fin 542, y (ix4 b m c (0 : Fin 1)) = shiftSum 512 K (entry X H b m) c.val) (c : Fin 542) :
    Host.scatter scatter_S8x512x542x1_S1_S8x512x512x1_0123_n_2_0 FloatOps.addf y idx
        (shapeCast S8x512x512x1 (extractStridedSlice S8x512x512x1x1 ![0, 0, 0, K, 0] (val_main_v3 (F := Ideal) X H) hs)
          shapeCasts_S8x512x512x1x1_S8x512x512x1) (ix4 b m c (0 : Fin 1))
      = shiftSum 512 (K + 1) (entry X H b m) c.val := by
  by_cases hc : K ≤ c.val ∧ c.val < K + 512
  · -- the shifted band covers column c: its entry at window column c − K is added
    have hv : c.val - K < 512 := by omega
    refine (scatter_hit idx K hidx FloatOps.addf y _ b m c ⟨c.val - K, hv⟩ (by show c.val = K + (c.val - K); omega)).trans ?_
    rw [hy c, band_apply X H K hK hs _ b m ⟨c.val - K, hv⟩, shiftSum_succ_of_hit _ _ _ _ hc]
    rfl
  · -- it does not: nothing is added
    refine (scatter_miss idx K hidx FloatOps.addf y _ b m c hc).trans ?_
    rw [hy c, shiftSum_succ_of_miss _ _ _ _ hc]

/-! ### The thirty-one bands -/

theorem sum_0 (b : Fin 8) (m : Fin 512) (c : Fin 542) :
    val_main_v8 (F := Ideal) X H (ix4 b m c (0 : Fin 1)) = shiftSum 512 1 (entry X H b m) c.val :=
  step X H 0 (by decide) _ (val_main_v4 (F := Ideal)) (val_main_v7 (F := Ideal))
    (fun i => (congrArg BitVec.toInt (idxvec 0#32 i)).trans (by decide)) b m (zero_stage X H b m) c

theorem sum_1 (b : Fin 8) (m : Fin 512) (c : Fin 542) :
    val_main_v12 (F := Ideal) X H (ix4 b m c (0 : Fin 1)) = shiftSum 512 2 (entry X H b m) c.val :=
  step X H 1 (by decide) _ (val_main_v8 (F := Ideal) X H) (val_main_v11 (F := Ideal))
    (fun i => (congrArg BitVec.toInt (idxvec 1#32 i)).trans (by decide)) b m (sum_0 X H b m) c

theorem sum_2 (b : Fin 8) (m : Fin 512) (c : Fin 542) :
    val_main_v16 (F := Ideal) X H (ix4 b m c (0 : Fin 1)) = shiftSum 512 3 (entry X H b m) c.val :=
  step X H 2 (by decide) _ (val_main_v12 (F := Ideal) X H) (val_main_v15 (F := Ideal))
    (fun i => (congrArg BitVec.toInt (idxvec 2#32 i)).trans (by decide)) b m (sum_1 X H b m) c

theorem sum_3 (b : Fin 8) (m : Fin 512) (c : Fin 542) :
    val_main_v20 (F := Ideal) X H (ix4 b m c (0 : Fin 1)) = shiftSum 512 4 (entry X H b m) c.val :=
  step X H 3 (by decide) _ (val_main_v16 (F := Ideal) X H) (val_main_v19 (F := Ideal))
    (fun i => (congrArg BitVec.toInt (idxvec 3#32 i)).trans (by decide)) b m (sum_2 X H b m) c

theorem sum_4 (b : Fin 8) (m : Fin 512) (c : Fin 542) :
    val_main_v24 (F := Ideal) X H (ix4 b m c (0 : Fin 1)) = shiftSum 512 5 (entry X H b m) c.val :=
  step X H 4 (by decide) _ (val_main_v20 (F := Ideal) X H) (val_main_v23 (F := Ideal))
    (fun i => (congrArg BitVec.toInt (idxvec 4#32 i)).trans (by decide)) b m (sum_3 X H b m) c

theorem sum_5 (b : Fin 8) (m : Fin 512) (c : Fin 542) :
    val_main_v28 (F := Ideal) X H (ix4 b m c (0 : Fin 1)) = shiftSum 512 6 (entry X H b m) c.val :=
  step X H 5 (by decide) _ (val_main_v24 (F := Ideal) X H) (val_main_v27 (F := Ideal))
    (fun i => (congrArg BitVec.toInt (idxvec 5#32 i)).trans (by decide)) b m (sum_4 X H b m) c

theorem sum_6 (b : Fin 8) (m : Fin 512) (c : Fin 542) :
    val_main_v32 (F := Ideal) X H (ix4 b m c (0 : Fin 1)) = shiftSum 512 7 (entry X H b m) c.val :=
  step X H 6 (by decide) _ (val_main_v28 (F := Ideal) X H) (val_main_v31 (F := Ideal))
    (fun i => (congrArg BitVec.toInt (idxvec 6#32 i)).trans (by decide)) b m (sum_5 X H b m) c

theorem sum_7 (b : Fin 8) (m : Fin 512) (c : Fin 542) :
    val_main_v36 (F := Ideal) X H (ix4 b m c (0 : Fin 1)) = shiftSum 512 8 (entry X H b m) c.val :=
  step X H 7 (by decide) _ (val_main_v32 (F := Ideal) X H) (val_main_v35 (F := Ideal))
    (fun i => (congrArg BitVec.toInt (idxvec 7#32 i)).trans (by decide)) b m (sum_6 X H b m) c

theorem sum_8 (b : Fin 8) (m : Fin 512) (c : Fin 542) :
    val_main_v40 (F := Ideal) X H (ix4 b m c (0 : Fin 1)) = shiftSum 512 9 (entry X H b m) c.val :=
  step X H 8 (by decide) _ (val_main_v36 (F := Ideal) X H) (val_main_v39 (F := Ideal))
    (fun i => (congrArg BitVec.toInt (idxvec 8#32 i)).trans (by decide)) b m (sum_7 X H b m) c

theorem sum_9 (b : Fin 8) (m : Fin 512) (c : Fin 542) :
    val_main_v44 (F := Ideal) X H (ix4 b m c (0 : Fin 1)) = shiftSum 512 10 (entry X H b m) c.val :=
  step X H 9 (by decide) _ (val_main_v40 (F := Ideal) X H) (val_main_v43 (F := Ideal))
    (fun i => (congrArg BitVec.toInt (idxvec 9#32 i)).trans (by decide)) b m (sum_8 X H b m) c

theorem sum_10 (b : Fin 8) (m : Fin 512) (c : Fin 542) :
    val_main_v48 (F := Ideal) X H (ix4 b m c (0 : Fin 1)) = shiftSum 512 11 (entry X H b m) c.val :=
  step X H 10 (by decide) _ (val_main_v44 (F := Ideal) X H) (val_main_v47 (F := Ideal))
    (fun i => (congrArg BitVec.toInt (idxvec 10#32 i)).trans (by decide)) b m (sum_9 X H b m) c

theorem sum_11 (b : Fin 8) (m : Fin 512) (c : Fin 542) :
    val_main_v52 (F := Ideal) X H (ix4 b m c (0 : Fin 1)) = shiftSum 512 12 (entry X H b m) c.val :=
  step X H 11 (by decide) _ (val_main_v48 (F := Ideal) X H) (val_main_v51 (F := Ideal))
    (fun i => (congrArg BitVec.toInt (idxvec 11#32 i)).trans (by decide)) b m (sum_10 X H b m) c

theorem sum_12 (b : Fin 8) (m : Fin 512) (c : Fin 542) :
    val_main_v56 (F := Ideal) X H (ix4 b m c (0 : Fin 1)) = shiftSum 512 13 (entry X H b m) c.val :=
  step X H 12 (by decide) _ (val_main_v52 (F := Ideal) X H) (val_main_v55 (F := Ideal))
    (fun i => (congrArg BitVec.toInt (idxvec 12#32 i)).trans (by decide)) b m (sum_11 X H b m) c

theorem sum_13 (b : Fin 8) (m : Fin 512) (c : Fin 542) :
    val_main_v60 (F := Ideal) X H (ix4 b m c (0 : Fin 1)) = shiftSum 512 14 (entry X H b m) c.val :=
  step X H 13 (by decide) _ (val_main_v56 (F := Ideal) X H) (val_main_v59 (F := Ideal))
    (fun i => (congrArg BitVec.toInt (idxvec 13#32 i)).trans (by decide)) b m (sum_12 X H b m) c

theorem sum_14 (b : Fin 8) (m : Fin 512) (c : Fin 542) :
    val_main_v64 (F := Ideal) X H (ix4 b m c (0 : Fin 1)) = shiftSum 512 15 (entry X H b m) c.val :=
  step X H 14 (by decide) _ (val_main_v60 (F := Ideal) X H) (val_main_v63 (F := Ideal))
    (fun i => (congrArg BitVec.toInt (idxvec 14#32 i)).trans (by decide)) b m (sum_13 X H b m) c

theorem sum_15 (b : Fin 8) (m : Fin 512) (c : Fin 542) :
    val_main_v68 (F := Ideal) X H (ix4 b m c (0 : Fin 1)) = shiftSum 512 16 (entry X H b m) c.val :=
  step X H 15 (by decide) _ (val_main_v64 (F := Ideal) X H) (val_main_v67 (F := Ideal))
    (fun i => (congrArg BitVec.toInt (idxvec 15#32 i)).trans (by decide)) b m (sum_14 X H b m) c

theorem sum_16 (b : Fin 8) (m : Fin 512) (c : Fin 542) :
    val_main_v72 (F := Ideal) X H (ix4 b m c (0 : Fin 1)) = shiftSum 512 17 (entry X H b m) c.val :=
  step X H 16 (by decide) _ (val_main_v68 (F := Ideal) X H) (val_main_v71 (F := Ideal))
    (fun i => (congrArg BitVec.toInt (idxvec 16#32 i)).trans (by decide)) b m (sum_15 X H b m) c

theorem sum_17 (b : Fin 8) (m : Fin 512) (c : Fin 542) :
    val_main_v76 (F := Ideal) X H (ix4 b m c (0 : Fin 1)) = shiftSum 512 18 (entry X H b m) c.val :=
  step X H 17 (by decide) _ (val_main_v72 (F := Ideal) X H) (val_main_v75 (F := Ideal))
    (fun i => (congrArg BitVec.toInt (idxvec 17#32 i)).trans (by decide)) b m (sum_16 X H b m) c

theorem sum_18 (b : Fin 8) (m : Fin 512) (c : Fin 542) :
    val_main_v80 (F := Ideal) X H (ix4 b m c (0 : Fin 1)) = shiftSum 512 19 (entry X H b m) c.val :=
  step X H 18 (by decide) _ (val_main_v76 (F := Ideal) X H) (val_main_v79 (F := Ideal))
    (fun i => (congrArg BitVec.toInt (idxvec 18#32 i)).trans (by decide)) b m (sum_17 X H b m) c

theorem sum_19 (b : Fin 8) (m : Fin 512) (c : Fin 542) :
    val_main_v84 (F := Ideal) X H (ix4 b m c (0 : Fin 1)) = shiftSum 512 20 (entry X H b m) c.val :=
  step X H 19 (by decide) _ (val_main_v80 (F := Ideal) X H) (val_main_v83 (F := Ideal))
    (fun i => (congrArg BitVec.toInt (idxvec 19#32 i)).trans (by decide)) b m (sum_18 X H b m) c

theorem sum_20 (b : Fin 8) (m : Fin 512) (c : Fin 542) :
    val_main_v88 (F := Ideal) X H (ix4 b m c (0 : Fin 1)) = shiftSum 512 21 (entry X H b m) c.val :=
  step X H 20 (by decide) _ (val_main_v84 (F := Ideal) X H) (val_main_v87 (F := Ideal))
    (fun i => (congrArg BitVec.toInt (idxvec 20#32 i)).trans (by decide)) b m (sum_19 X H b m) c

theorem sum_21 (b : Fin 8) (m : Fin 512) (c : Fin 542) :
    val_main_v92 (F := Ideal) X H (ix4 b m c (0 : Fin 1)) = shiftSum 512 22 (entry X H b m) c.val :=
  step X H 21 (by decide) _ (val_main_v88 (F := Ideal) X H) (val_main_v91 (F := Ideal))
    (fun i => (congrArg BitVec.toInt (idxvec 21#32 i)).trans (by decide)) b m (sum_20 X H b m) c

theorem sum_22 (b : Fin 8) (m : Fin 512) (c : Fin 542) :
    val_main_v96 (F := Ideal) X H (ix4 b m c (0 : Fin 1)) = shiftSum 512 23 (entry X H b m) c.val :=
  step X H 22 (by decide) _ (val_main_v92 (F := Ideal) X H) (val_main_v95 (F := Ideal))
    (fun i => (congrArg BitVec.toInt (idxvec 22#32 i)).trans (by decide)) b m (sum_21 X H b m) c

theorem sum_23 (b : Fin 8) (m : Fin 512) (c : Fin 542) :
    val_main_v100 (F := Ideal) X H (ix4 b m c (0 : Fin 1)) = shiftSum 512 24 (entry X H b m) c.val :=
  step X H 23 (by decide) _ (val_main_v96 (F := Ideal) X H) (val_main_v99 (F := Ideal))
    (fun i => (congrArg BitVec.toInt (idxvec 23#32 i)).trans (by decide)) b m (sum_22 X H b m) c

theorem sum_24 (b : Fin 8) (m : Fin 512) (c : Fin 542) :
    val_main_v104 (F := Ideal) X H (ix4 b m c (0 : Fin 1)) = shiftSum 512 25 (entry X H b m) c.val :=
  step X H 24 (by decide) _ (val_main_v100 (F := Ideal) X H) (val_main_v103 (F := Ideal))
    (fun i => (congrArg BitVec.toInt (idxvec 24#32 i)).trans (by decide)) b m (sum_23 X H b m) c

theorem sum_25 (b : Fin 8) (m : Fin 512) (c : Fin 542) :
    val_main_v108 (F := Ideal) X H (ix4 b m c (0 : Fin 1)) = shiftSum 512 26 (entry X H b m) c.val :=
  step X H 25 (by decide) _ (val_main_v104 (F := Ideal) X H) (val_main_v107 (F := Ideal))
    (fun i => (congrArg BitVec.toInt (idxvec 25#32 i)).trans (by decide)) b m (sum_24 X H b m) c

theorem sum_26 (b : Fin 8) (m : Fin 512) (c : Fin 542) :
    val_main_v112 (F := Ideal) X H (ix4 b m c (0 : Fin 1)) = shiftSum 512 27 (entry X H b m) c.val :=
  step X H 26 (by decide) _ (val_main_v108 (F := Ideal) X H) (val_main_v111 (F := Ideal))
    (fun i => (congrArg BitVec.toInt (idxvec 26#32 i)).trans (by decide)) b m (sum_25 X H b m) c

theorem sum_27 (b : Fin 8) (m : Fin 512) (c : Fin 542) :
    val_main_v116 (F := Ideal) X H (ix4 b m c (0 : Fin 1)) = shiftSum 512 28 (entry X H b m) c.val :=
  step X H 27 (by decide) _ (val_main_v112 (F := Ideal) X H) (val_main_v115 (F := Ideal))
    (fun i => (congrArg BitVec.toInt (idxvec 27#32 i)).trans (by decide)) b m (sum_26 X H b m) c

theorem sum_28 (b : Fin 8) (m : Fin 512) (c : Fin 542) :
    val_main_v120 (F := Ideal) X H (ix4 b m c (0 : Fin 1)) = shiftSum 512 29 (entry X H b m) c.val :=
  step X H 28 (by decide) _ (val_main_v116 (F := Ideal) X H) (val_main_v119 (F := Ideal))
    (fun i => (congrArg BitVec.toInt (idxvec 28#32 i)).trans (by decide)) b m (sum_27 X H b m) c

theorem sum_29 (b : Fin 8) (m : Fin 512) (c : Fin 542) :
    val_main_v124 (F := Ideal) X H (ix4 b m c (0 : Fin 1)) = shiftSum 512 30 (entry X H b m) c.val :=
  step X H 29 (by decide) _ (val_main_v120 (F := Ideal) X H) (val_main_v123 (F := Ideal))
    (fun i => (congrArg BitVec.toInt (idxvec 29#32 i)).trans (by decide)) b m (sum_28 X H b m) c

theorem sum_30 (b : Fin 8) (m : Fin 512) (c : Fin 542) :
    val_main_v128 (F := Ideal) X H (ix4 b m c (0 : Fin 1)) = shiftSum 512 31 (entry X H b m) c.val :=
  step X H 30 (by decide) _ (val_main_v124 (F := Ideal) X H) (val_main_v127 (F := Ideal))
    (fun i => (congrArg BitVec.toInt (idxvec 30#32 i)).trans (by decide)) b m (sum_29 X H b m) c

/-- THE REFERENCE'S SUM: the accumulator after all thirty-one bands, at (b, m, c, 0), is the shifted band sum. -/
theorem ref_sum (X : FVec Ideal S8x512x512x31 .f32) (H : FVec Ideal S1x512x512x31 .f32) (b : Fin 8) (m : Fin 512) (c : Fin 542) :
    val_main_v128 (F := Ideal) X H (ix4 b m c (0 : Fin 1))
      = shiftSum 512 31 (fun w k => at4 H 0 m.val w k * at4 X b.val m.val w k) c.val :=
  sum_30 X H b m c

end Cert.RefValue

end
-- ==== Proof.LibReduceRelabel.lean ====
/-
  A reduction over ALL axes does not see how the array is laid out.

  `stablehlo.reduce` of a commutative, associative operation into a result with a single index (every axis reduced) is the
  fold of the operation over the set of all the operand's entries, from the initial value. Two arrays whose entries
  correspond under a bijection of their index sets — for instance an [a, b, c] array and the same numbers laid out as
  [a, b, c, 1] — therefore reduce to the same value, whatever their shapes and ranks (`reduce_all_relabel`).
-/
import Idealize.ShloMosaic.PureOps.Reduce
import Mathlib.Data.Finset.Fold
import Mathlib.Data.Fintype.Basic

noncomputable section

namespace Cert.ReduceRelabel

open Idealize.ShloMosaic

variable {α : Type}

/-- A full reduction is the fold over every entry: into a result with one index nothing is filtered out. -/
theorem reduce_all_eq_fold (f : α → α → α) [Std.Commutative f] [Std.Associative f] {s t u : Shape}
    {axes : List (Fin s.rank)} [Subsingleton t.Idx] (x : s.Idx → α) (init : u.Idx → α) (h : s.ReducesTo axes t)
    (hu : 0 < u.numel) (j : t.Idx) :
    Host.reduce f x init h hu j = (Finset.univ : Finset s.Idx).fold f (init (Shape.Idx.first hu)) x := by
  rw [Host.reduce_eq_fold]
  congr 1
  exact Finset.filter_true_of_mem fun i _ => Subsingleton.elim _ _

/-- Two full reductions, from equal initial values, of arrays whose entries correspond under a bijection `e` of their
    index sets, are equal. -/
theorem reduce_all_relabel (f : α → α → α) [Std.Commutative f] [Std.Associative f] {s s' t t' u u' : Shape}
    {axes : List (Fin s.rank)} {axes' : List (Fin s'.rank)} [Subsingleton t.Idx] [Subsingleton t'.Idx]
    (x : s.Idx → α) (x' : s'.Idx → α) (init : u.Idx → α) (init' : u'.Idx → α)
    (h : s.ReducesTo axes t) (h' : s'.ReducesTo axes' t') (hu : 0 < u.numel) (hu' : 0 < u'.numel)
    (e : s.Idx ≃ s'.Idx) (hx : ∀ i, x' (e i) = x i)
    (hinit : init (Shape.Idx.first hu) = init' (Shape.Idx.first hu')) (j : t.Idx) (j' : t'.Idx) :
    Host.reduce f x init h hu j = Host.reduce f x' init' h' hu' j' := by
  rw [reduce_all_eq_fold, reduce_all_eq_fold, hinit, ← Finset.map_univ_equiv e, Finset.fold_map]
  congr 1
  funext i
  exact (hx i).symm

end Cert.ReduceRelabel

end
-- ==== Proof.Bridge.lean ====
/-
  The reference's first result is the kernel's: the same function `normalise (bandSum X H)` of the arguments.

  The reference accumulates the 31 shifted bands into Y : [8, 512, 542, 1] and divides Y by its maximum. Entry by entry
  Y[b, m, c, 0] is the shifted band sum (`RefSum`, proved separately) of the products H·X, which is the kernel's padded
  detector array at (b, m, c) for c < 542 (the products commute). The two maxima run over the same numbers laid out with
  and without the trailing unit axis, so they agree (a full reduction does not see the layout), and the quotients follow.
-/
import proofs.«123080_j38439957299668_2_alg».proof.Proof.RefRead
import proofs.«123080_j38439957299668_2_alg».proof.Proof.KernelTail
import proofs.«123080_j38439957299668_2_alg».proof.Proof.LibReduceRelabel

noncomputable section

namespace Cert.Bridge

open Cert.ReferenceIdeal Cert.ReferenceIdeal.ReadP Cert.ShiftSum
open Idealize.ShloMosaic Idealize.ShloMosaic.ValueIdx
open Cert.KernelArray (bandSum)
open Cert.KernelTail (realCols maxAll normalise normaliseWith)

/-- The reference's accumulated detector array, entry by entry: the shifted band sum of the products (mask first). -/
def RefSum : Prop :=
  ∀ (X : FVec Ideal S8x512x512x31 .f32) (H : FVec Ideal S1x512x512x31 .f32) (b : Fin 8) (mm : Fin 512) (c : Fin 542),
    val_main_v128 (F := Ideal) X H (ix4 b mm c (0 : Fin 1))
      = shiftSum 512 31 (fun w k => at4 H 0 mm.val w k * at4 X b.val mm.val w k) c.val

instance : Subsingleton S_.Idx := ⟨fun a b => funext fun d => d.elim0⟩
instance : Subsingleton Cert.KernelIdeal.S_.Idx := ⟨fun a b => funext fun d => d.elim0⟩

/-- [8, 512, 542] and [8, 512, 542, 1] index the same entries. -/
def addUnit : (⟨3, ![8, 512, 542]⟩ : Shape).Idx ≃ (⟨4, ![8, 512, 542, 1]⟩ : Shape).Idx where
  toFun i := ix4 (i 0) (i 1) (i 2) (0 : Fin 1)
  invFun j := ix3 (j 0) (j 1) (j 2)
  left_inv i := (eq_ix3 i).symm
  right_inv j := by
    show ix4 (j 0) (j 1) (j 2) (0 : Fin 1) = j
    funext a
    match a with
    | ⟨0, _⟩ => rfl
    | ⟨1, _⟩ => rfl
    | ⟨2, _⟩ => rfl
    | ⟨3, _⟩ => exact Fin.ext (by show 0 = (j 3).val; have : (j 3).val < 1 := (j 3).isLt; omega)

/-- An entry of the reference's accumulated array is the kernel's padded array's entry in the real columns. -/
theorem entry_eq (href : RefSum) (X : FVec Ideal S8x512x512x31 .f32) (H : FVec Ideal S1x512x512x31 .f32)
    (b : Fin 8) (mm : Fin 512) (cc : Fin 542) :
    val_main_v128 (F := Ideal) X H (ix4 b mm cc (0 : Fin 1)) = realCols (bandSum X H) (ix3 b mm cc) := by
  rw [href X H b mm cc]
  refine (shiftSum_congr 512 31 _ _ cc.val (fun k _ w _ => mul_comm _ _)).trans ?_
  refine Eq.symm ((extractStridedSlice_apply ![0, 0, 0] (bandSum X H) Cert.KernelIdeal.Gen.slices_S8x512x640_S8x512x542_0_0_0
    (ix3 b mm cc) (ix3 b mm ⟨cc.val, by have := cc.isLt; omega⟩) (fun a => match a with
      | ⟨0, _⟩ => by show b.val = 0 + b.val; omega
      | ⟨1, _⟩ => by show mm.val = 0 + mm.val; omega
      | ⟨2, _⟩ => by show cc.val = 0 + cc.val; omega)).trans ?_)
  rfl

/-- The two maxima agree, for ANY two arrays with the same entries laid out without and with the trailing unit axis. -/
theorem max_eq (Y : Cert.KernelIdeal.S8x512x542.Idx → EReal) (Y' : S8x512x542x1.Idx → EReal)
    (hent : ∀ (b : Fin 8) (mm : Fin 512) (cc : Fin 542), Y' (ix4 b mm cc (0 : Fin 1)) = Y (ix3 b mm cc))
    (j : S_.Idx) (j' : Cert.KernelIdeal.S_.Idx) :
    Host.reduce (FloatOps.maximumf (F := Ideal) (φ := .f32)) Y' (val_main_cst_30 (F := Ideal))
        Cert.ReferenceIdeal.Gen.reducesTo_S8x512x542x1_S_d0_1_2_3 Cert.ReferenceIdeal.Gen.h_S_ j
      = maxAll Y j' := by
  unfold maxAll
  refine (Cert.ReduceRelabel.reduce_all_relabel (FloatOps.maximumf (F := Ideal) (φ := .f32)) Y Y' _ _ _ _ _ _ addUnit
    (fun i => ?_) rfl j' j).symm
  exact (hent (i 0) (i 1) (i 2)).trans (congrArg Y (eq_ix3 i).symm)

/-- The two quotients agree, for any two such arrays. -/
theorem quotient_eq (Y : Cert.KernelIdeal.S8x512x542.Idx → EReal) (Y' : S8x512x542x1.Idx → EReal)
    (hent : ∀ (b : Fin 8) (mm : Fin 512) (cc : Fin 542), Y' (ix4 b mm cc (0 : Fin 1)) = Y (ix3 b mm cc))
    (b : Fin 8) (mm : Fin 512) (cc : Fin 542) (j : S_.Idx) :
    FloatOps.hostDivf (F := Ideal) (φ := .f32) (Y' (ix4 b mm cc (0 : Fin 1)))
        (Host.reduce (FloatOps.maximumf (F := Ideal) (φ := .f32)) Y' (val_main_cst_30 (F := Ideal))
          Cert.ReferenceIdeal.Gen.reducesTo_S8x512x542x1_S_d0_1_2_3 Cert.ReferenceIdeal.Gen.h_S_ j)
      = FloatOps.hostDivf (F := Ideal) (φ := .f32) (Y (ix3 b mm cc)) (maxAll Y ix0) := by
  rw [hent b mm cc, max_eq Y Y' hent j ix0]

/-- Appending the unit axis: entry (b, m, c, 0) is entry (b, m, c). -/
theorem unit_axis_apply (Q : Cert.KernelIdeal.S8x512x542.Idx → EReal) (b : Fin 8) (mm : Fin 512) (cc : Fin 542) :
    broadcastInDim Cert.KernelIdeal.S8x512x542x1 ![0, 1, 2] Cert.KernelIdeal.Gen.bcast_S8x512x542_S8x512x542x1_0_1_2 Q
        (ix4 b mm cc (0 : Fin 1)) = Q (ix3 b mm cc) :=
  broadcastInDim_apply _ Cert.KernelIdeal.Gen.bcast_S8x512x542_S8x512x542x1_0_1_2 Q (ix4 b mm cc (0 : Fin 1)) (ix3 b mm cc)
    (fun a => match a with
      | ⟨0, _⟩ => by show b.val = if (8 : Nat) = 1 then 0 else b.val; rw [if_neg (by decide)]
      | ⟨1, _⟩ => by show mm.val = if (512 : Nat) = 1 then 0 else mm.val; rw [if_neg (by decide)]
      | ⟨2, _⟩ => by show cc.val = if (542 : Nat) = 1 then 0 else cc.val; rw [if_neg (by decide)])

/-- A scalar spread over the array: every entry is the scalar. -/
theorem splat_apply (M : Cert.KernelIdeal.S_.Idx → EReal) (i : Cert.KernelIdeal.S8x512x542.Idx) :
    broadcastInDim Cert.KernelIdeal.S8x512x542 ![] Cert.KernelIdeal.Gen.bcast_S_S8x512x542 M i = M ix0 :=
  broadcastInDim_apply _ Cert.KernelIdeal.Gen.bcast_S_S8x512x542 M i ix0 (fun a => a.elim0)

/-- The quotient by a scalar with the unit axis appended, read at an index: for ANY array and scalar. -/
theorem normaliseWith_apply (M : Cert.KernelIdeal.S_.Idx → EReal) (Y : Cert.KernelIdeal.S8x512x542.Idx → EReal)
    (b : Fin 8) (mm : Fin 512) (cc : Fin 542) :
    normaliseWith M Y (ix4 b mm cc (0 : Fin 1))
      = FloatOps.hostDivf (F := Ideal) (φ := .f32) (Y (ix3 b mm cc)) (M ix0) := by
  unfold normaliseWith
  rw [unit_axis_apply]
  show FloatOps.hostDivf (F := Ideal) (φ := .f32) (Y (ix3 b mm cc))
    (broadcastInDim Cert.KernelIdeal.S8x512x542 ![] Cert.KernelIdeal.Gen.bcast_S_S8x512x542 M (ix3 b mm cc)) = _
  rw [splat_apply]

/-- THE REFERENCE'S FIRST RESULT is `normalise` of the padded detector array of the arguments. -/
theorem ref_value (href : RefSum) (X : FVec Ideal S8x512x512x31 .f32) (H : FVec Ideal S1x512x512x31 .f32) :
    val_main_v131 (F := Ideal) X H = normalise (bandSum X H) := by
  funext i
  obtain ⟨b, mm, cc, z, rfl⟩ : ∃ (b : Fin 8) (mm : Fin 512) (cc : Fin 542) (z : Fin 1), i = ix4 b mm cc z :=
    ⟨i 0, i 1, i 2, i 3, eq_ix4 i⟩
  obtain rfl : z = 0 := Subsingleton.elim _ _
  rw [val_main_v131_apply, val_main_v130_apply]
  unfold val_main_v129
  exact (quotient_eq (realCols (bandSum X H)) (val_main_v128 (F := Ideal) X H) (entry_eq href X H) b mm cc _).trans
    (normaliseWith_apply (maxAll (realCols (bandSum X H))) (realCols (bandSum X H)) b mm cc).symm

end Cert.Bridge

end
-- ==== Proof.lean ====
/-
  The coded-aperture shift-multiply-sum forward model: a Pallas kernel against its jnp reference, over the extended reals.

  Both programs take a spectral cube X : [8, 512, 512, 31] (batch, row, width, band) and a mask H : [1, 512, 512, 31] and
  return (Y / max Y, H with a trailing unit axis), where

      Y[b, m, c] = Σ_{k < 31, k ≤ c < k + 512}  X[b, m, c − k, k] · H[0, m, c − k, k]          (c < 542):

  band k of the masked cube is laid on the detector row shifted right by k columns, and the bands are summed.

  * The kernel transposes X and H (bands before width), and on a 4 x 8 grid of (row block, batch) points multiplies the two
    blocks, pads each band's [128, 512] slab with zeros to 640 columns at offset k, and adds the 31 padded slabs from
    zero; the host then cuts the 640 columns back to 542, divides by the maximum and appends the unit axis.
    What a point stores is the shifted band sum of its blocks' products (KernelBody), every stored block is a
    restriction of one function `bandSum X H` and the blocks cover the array (KernelArray), and the host tail is
    the function `normalise` of that array (KernelTail).
  * The reference multiplies H by X, and for each band k adds the band into columns k .. k + 511 of an accumulator of
    zeros by a scatter with one window; entry by entry the accumulator is the same shifted band sum (RefValue, over the
    scatter read at an index), a missed band adding nothing where the kernel adds a padding zero. Its maximum runs over
    the same numbers with a trailing unit axis, so it is the kernel's, and its quotient is `normalise (bandSum X H)`
    (Bridge).

  The only laws used are that 0 is neutral for +, that + and · are commutative and associative, and that a full
  max-reduction does not see the layout: all hold on the extended reals without any finiteness, so the precondition is
  never opened. The ideal pass rewrote nothing, so the kernel's idealization is its own text read at the ideal instance.
  The three frames are the generated frame certificates of the two kernel programs and the reference's run.
-/
import proofs.«123080_j38439957299668_2_alg».proof.Defs
import proofs.«123080_j38439957299668_2_alg».proof.Proof.Gen.Kernel
import proofs.«123080_j38439957299668_2_alg».proof.Proof.Gen.Kernel.Skeleton
import proofs.«123080_j38439957299668_2_alg».proof.Proof.Gen.Kernel.Launch
import proofs.«123080_j38439957299668_2_alg».proof.Proof.Gen.Kernel.Points
import proofs.«123080_j38439957299668_2_alg».proof.Proof.Gen.Kernel.Frame
import proofs.«123080_j38439957299668_2_alg».proof.Proof.Gen.KernelIdeal
import proofs.«123080_j38439957299668_2_alg».proof.Proof.Gen.KernelIdeal.Skeleton
import proofs.«123080_j38439957299668_2_alg».proof.Proof.Gen.KernelIdeal.Launch
import proofs.«123080_j38439957299668_2_alg».proof.Proof.Gen.KernelIdeal.Points
import proofs.«123080_j38439957299668_2_alg».proof.Proof.Gen.KernelIdeal.Frame
import proofs.«123080_j38439957299668_2_alg».proof.Proof.Gen.ReferenceIdeal
import proofs.«123080_j38439957299668_2_alg».proof.Proof.Gen.Pre_finite_inputs
import proofs.«123080_j38439957299668_2_alg».proof.Proof.RefRun
import proofs.«123080_j38439957299668_2_alg».proof.Proof.RefRead
import proofs.«123080_j38439957299668_2_alg».proof.Proof.KernelBody
import proofs.«123080_j38439957299668_2_alg».proof.Proof.KernelTail
import proofs.«123080_j38439957299668_2_alg».proof.Proof.RefValue
import proofs.«123080_j38439957299668_2_alg».proof.Proof.Bridge
import Idealize.ShloMosaic.Adequacy
import Idealize.ShloMosaic.Init

noncomputable section

namespace Cert.Proof

open Idealize.ShloMosaic Idealize.SL.Sem

/-- The word-level kernel program runs and keeps its arguments: its generated frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, with the results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories agreeing on X and H both idealized programs end with the first result at `normalise (bandSum X H)` and
    the second at H with a trailing unit axis. -/
theorem algebraic : Cert.algebraic_KernelIdeal_ReferenceIdeal := by
  intro m ρ m' ρ' _ hagree
  refine ⟨fun c => Cert.KernelTail.normalise (Cert.KernelArray.bandSum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    fun c => Cert.KernelTail.maskOut (m ((c.tc : Thread Cert.KernelIdeal.nD Cert.KernelIdeal.τ).loc Cert.KernelIdeal.main_arg1)),
    Cert.KernelTail.kernel_run m ρ Cert.KernelBody.body_sum, ?_⟩
  refine (θ_run Cert.ReferenceIdeal.defs _ _).mono
    (fun _ h c => ⟨(h c).1.trans ?_, (h c).2.1.trans ?_, (h c).2.2.1, (h c).2.2.2⟩)
    (Cert.ReferenceIdeal.ValueP.run (F := Ideal) m' ρ')
  · rw [Cert.ReferenceIdeal.ReadP.val_main_v131_eq, (hagree c).1, (hagree c).2]
    exact Cert.Bridge.ref_value Cert.RefValue.ref_sum _ _
  · rw [(hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
